-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S200000x128 : Shape := ⟨2, ![200000, 128]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S32x1 .f32) (main_arg13 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg12
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S64 .f32) (main_arg9 : FVec F S64x64 .f32) (main_arg10 : FVec F S64x32 .f32) (main_arg11 : FVec F S32 .f32) (main_arg12 : FVec F S32x1 .f32) (main_arg13 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x32 .f32 := Host.absf main_arg10
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_v48 main_v49 main_v50

def fn_part1 {F : FTy → Type} [FloatOps F] (main_arg5 : FVec F S128x64 .f32) (main_arg6 : FVec F S64 .f32) (main_arg7 : FVec F S64x64 .f32) (main_arg8 : FVec F S64 .f32) (main_arg9 : FVec F S64x64 .f32) (main_arg10 : FVec F S64x32 .f32) (main_arg11 : FVec F S32 .f32) (main_arg12 : FVec F S32x1 .f32) (main_arg13 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : FVec F S200000x128 .f32) (main_arg2 : IVec S2x1000000 32) (main_arg3 : FVec F S128x64 .f32) (main_arg4 : FVec F S64 .f32) (main_arg5 : FVec F S128x64 .f32) (main_arg6 : FVec F S64 .f32) (main_arg7 : FVec F S64x64 .f32) (main_arg8 : FVec F S64 .f32) (main_arg9 : FVec F S64x64 .f32) (main_arg10 : FVec F S64x32 .f32) (main_arg11 : FVec F S32 .f32) (main_arg12 : FVec F S32x1 .f32) (main_arg13 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S200000x128 : Shape := ⟨2, ![200000, 128]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x64 : Shape := ⟨2, ![1, 64]⟩
abbrev S100000x64 : Shape := ⟨2, ![100000, 64]⟩
abbrev S4000x128 : Shape := ⟨2, ![4000, 128]⟩
abbrev S4000x64 : Shape := ⟨2, ![4000, 64]⟩
abbrev S200000x64 : Shape := ⟨2, ![200000, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x32 : Shape := ⟨2, ![1, 32]⟩
abbrev S1x1 : Shape := ⟨2, ![1, 1]⟩
abbrev S4000x1 : Shape := ⟨2, ![4000, 1]⟩
abbrev S4000x32 : Shape := ⟨2, ![4000, 32]⟩

abbrev nBuf : Space → Nat
  | .hbm => 47
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S200000x128, .f32⟩
  | .hbm, ⟨2, _⟩ => ⟨S2x1000000, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x32, .f32⟩
  | .hbm, ⟨11, _⟩ => ⟨S32, .f32⟩
  | .hbm, ⟨12, _⟩ => ⟨S32x1, .f32⟩
  | .hbm, ⟨13, _⟩ => ⟨S1, .f32⟩
  | .hbm, ⟨14, _⟩ => ⟨S1x64, .f32⟩
  | .hbm, ⟨15, _⟩ => ⟨S100000x64, .f32⟩
  | .hbm, ⟨16, _⟩ => ⟨S1x64, .f32⟩
  | .hbm, ⟨17, _⟩ => ⟨S200000x64, .f32⟩
  | .hbm, ⟨18, _⟩ => ⟨S1x1000000, .i32⟩
  | .hbm, ⟨19, _⟩ => ⟨S1000000, .i32⟩
  | .hbm, ⟨20, _⟩ => ⟨S1x1000000, .i32⟩
  | .hbm, ⟨21, _⟩ => ⟨S1000000, .i32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x64, .f32⟩
  | .hbm, ⟨31, _⟩ => ⟨S_, .f32⟩
  | .hbm, ⟨32, _⟩ => ⟨S100000x64, .f32⟩
  | .hbm, ⟨33, _⟩ => ⟨S1000000x1, .i32⟩
  | .hbm, ⟨34, _⟩ => ⟨S100000x64, .f32⟩
  | .hbm, ⟨35, _⟩ => ⟨S_, .f32⟩
  | .hbm, ⟨36, _⟩ => ⟨S1000000, .f32⟩
  | .hbm, ⟨37, _⟩ => ⟨S_, .f32⟩
  | .hbm, ⟨38, _⟩ => ⟨S100000, .f32⟩
  | .hbm, ⟨39, _⟩ => ⟨S1000000x1, .i32⟩
  | .hbm, ⟨40, _⟩ => ⟨S100000, .f32⟩
  | .hbm, ⟨41, _⟩ => ⟨S100000x1, .f32⟩
  | .hbm, ⟨42, _⟩ => ⟨S1x64, .f32⟩
  | .hbm, ⟨43, _⟩ => ⟨S1x32, .f32⟩
  | .hbm, ⟨44, _⟩ => ⟨S1x1, .f32⟩
  | .hbm, ⟨45, _⟩ => ⟨S100000x1, .f32⟩
  | .hbm, ⟨46, _⟩ => ⟨S100000, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S1x64, .f32⟩
  | .local _ .vmem, ⟨4, _⟩ => ⟨S4000x64, .f32⟩
  | .local _ .vmem, ⟨5, _⟩ => ⟨S4000x64, .f32⟩
  | .local _ .vmem, ⟨6, _⟩ => ⟨S4000x128, .f32⟩
  | .local _ .vmem, ⟨7, _⟩ => ⟨S4000x128, .f32⟩
  | .local _ .vmem, ⟨8, _⟩ => ⟨S128x64, .f32⟩
  | .local _ .vmem, ⟨9, _⟩ => ⟨S1x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x1, .f32⟩
  | .local _ .vmem, ⟨15, _⟩ => ⟨S4000x1, .f32⟩
  | .local _ .vmem, ⟨16, _⟩ => ⟨S4000x64, .f32⟩
  | .local _ .vmem, ⟨17, _⟩ => ⟨S4000x64, .f32⟩
  | .local _ .vmem, ⟨18, _⟩ => ⟨S64x64, .f32⟩
  | .local _ .vmem, ⟨19, _⟩ => ⟨S1x64, .f32⟩
  | .local _ .vmem, ⟨20, _⟩ => ⟨S64x64, .f32⟩
  | .local _ .vmem, ⟨21, _⟩ => ⟨S64x32, .f32⟩
  | .local _ .vmem, ⟨22, _⟩ => ⟨S1x32, .f32⟩
  | .local _ .vmem, ⟨23, _⟩ => ⟨S32x1, .f32⟩
  | .local _ .vmem, ⟨24, _⟩ => ⟨S1x1, .f32⟩
  | .local _ .vmem, ⟨25, _⟩ => ⟨S4000x1, .f32⟩
  | .local _ .vmem, ⟨26, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg10_0 : Ref sig .tc := ⟨.vmem, 25, rfl⟩
abbrev cc2_stg10_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem10_0 : DmaSem sig := 25
abbrev cc2_sem10_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S32x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S4000x1 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  shapeCasts_S32_S1x32 : S32.ShapeCasts S1x32
  shapeCasts_S1_S1x1 : S1.ShapeCasts S1x1
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  shapeCasts_S100000x1_S100000 : S100000x1.ShapeCasts S100000
  dot_S4000x128_S128x64_S4000x64_1_0_0_1_n_n_wf : DotDims.WF S4000x128 S128x64 S4000x64 [1] [0] [0] [1] [] []
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S4000x64_S64x64_S4000x64_1_0_0_1_n_n_wf : DotDims.WF S4000x64 S64x64 S4000x64 [1] [0] [0] [1] [] []
  dot_S4000x64_S64x32_S4000x32_1_0_0_1_n_n_wf : DotDims.WF S4000x64 S64x32 S4000x32 [1] [0] [0] [1] [] []
  dot_S4000x32_S32x1_S4000x1_1_0_0_1_n_n_wf : DotDims.WF S4000x32 S32x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .f32 = 32 ∨ (Rect.block (s := S200000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S200000x64.size a
  hwx1_3 : ∀ i : grid1.Coords, EltTy.bits .f32 = 32 ∨ (Rect.block (s := S200000x64) S4000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x32.size a ≤ S64x32.size a
  hwx2_6 : ∀ i : grid2.Coords, EltTy.bits .f32 = 32 ∨ (Rect.block (s := S64x32) S64x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S32x1.size a ≤ S32x1.size a
  hwx2_8 : ∀ i : grid2.Coords, EltTy.bits .f32 = 32 ∨ (Rect.block (s := S32x1) S32x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S4000x1.size a ≤ S100000x1.size a
  hwx2_10 : ∀ i : grid2.Coords, EltTy.bits .f32 = 32 ∨ (Rect.block (s := S100000x1) S4000x1.size (cc2_transform_10 i) (hinb2_10 i)).WholeWords (EltTy.packing .f32)

variable [Facts₀]

def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v17) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S64x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v24) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg12) S32x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v25) S1x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v26) S4000x1.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x128 : Shape := ⟨2, ![100000, 128]⟩
abbrev S200000x128 : Shape := ⟨2, ![200000, 128]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000x64 : Shape := ⟨2, ![100000, 64]⟩
abbrev S1x64 : Shape := ⟨2, ![1, 64]⟩
abbrev S_ : Shape := ⟨0, ![]⟩
abbrev S200000x64 : Shape := ⟨2, ![200000, 64]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S200000x128, .f32⟩
  | .hbm, ⟨2, _⟩ => ⟨S2x1000000, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x32, .f32⟩
  | .hbm, ⟨11, _⟩ => ⟨S32, .f32⟩
  | .hbm, ⟨12, _⟩ => ⟨S32x1, .f32⟩
  | .hbm, ⟨13, _⟩ => ⟨S1, .f32⟩
  | .hbm, ⟨14, _⟩ => ⟨S100000x64, .f32⟩
  | .hbm, ⟨15, _⟩ => ⟨S1x64, .f32⟩
  | .hbm, ⟨16, _⟩ => ⟨S100000x64, .f32⟩
  | .hbm, ⟨17, _⟩ => ⟨S100000x64, .f32⟩
  | .hbm, ⟨18, _⟩ => ⟨S_, .f32⟩
  | .hbm, ⟨19, _⟩ => ⟨S100000x64, .f32⟩
  | .hbm, ⟨20, _⟩ => ⟨S100000x64, .f32⟩
  | .hbm, ⟨21, _⟩ => ⟨S200000x64, .f32⟩
  | .hbm, ⟨22, _⟩ => ⟨S1x64, .f32⟩
  | .hbm, ⟨23, _⟩ => ⟨S200000x64, .f32⟩
  | .hbm, ⟨24, _⟩ => ⟨S200000x64, .f32⟩
  | .hbm, ⟨25, _⟩ => ⟨S_, .f32⟩
  | .hbm, ⟨26, _⟩ => ⟨S200000x64, .f32⟩
  | .hbm, ⟨27, _⟩ => ⟨S200000x64, .f32⟩
  | .hbm, ⟨28, _⟩ => ⟨S1x1000000, .i32⟩
  | .hbm, ⟨29, _⟩ => ⟨S1000000, .i32⟩
  | .hbm, ⟨30, _⟩ => ⟨S1x1000000, .i32⟩
  | .hbm, ⟨31, _⟩ => ⟨S1000000, .i32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x64, .f32⟩
  | .hbm, ⟨41, _⟩ => ⟨S_, .f32⟩
  | .hbm, ⟨42, _⟩ => ⟨S100000x64, .f32⟩
  | .hbm, ⟨43, _⟩ => ⟨S1000000x1, .i32⟩
  | .hbm, ⟨44, _⟩ => ⟨S100000x64, .f32⟩
  | .hbm, ⟨45, _⟩ => ⟨S_, .f32⟩
  | .hbm, ⟨46, _⟩ => ⟨S1000000, .f32⟩
  | .hbm, ⟨47, _⟩ => ⟨S_, .f32⟩
  | .hbm, ⟨48, _⟩ => ⟨S100000, .f32⟩
  | .hbm, ⟨49, _⟩ => ⟨S1000000x1, .i32⟩
  | .hbm, ⟨50, _⟩ => ⟨S100000, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S100000x1, .f32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x32, .f32⟩
  | .hbm, ⟨67, _⟩ => ⟨S1x32, .f32⟩
  | .hbm, ⟨68, _⟩ => ⟨S100000x32, .f32⟩
  | .hbm, ⟨69, _⟩ => ⟨S100000x32, .f32⟩
  | .hbm, ⟨70, _⟩ => ⟨S_, .f32⟩
  | .hbm, ⟨71, _⟩ => ⟨S100000x32, .f32⟩
  | .hbm, ⟨72, _⟩ => ⟨S100000x32, .f32⟩
  | .hbm, ⟨73, _⟩ => ⟨S100000x1, .f32⟩
  | .hbm, ⟨74, _⟩ => ⟨S1x1, .f32⟩
  | .hbm, ⟨75, _⟩ => ⟨S100000x1, .f32⟩
  | .hbm, ⟨76, _⟩ => ⟨S100000x1, .f32⟩
  | .hbm, ⟨77, _⟩ => ⟨S100000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_cst : Ref sig .tc := ⟨.hbm, 25, rfl⟩
abbrev main_call1_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_1 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call2_cst : Ref sig .tc := ⟨.hbm, 63, rfl⟩
abbrev main_call2_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call3_cst : Ref sig .tc := ⟨.hbm, 70, rfl⟩
abbrev main_call3_v0 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  dot_S100000x128_S128x64_S100000x64_1_0_0_1_n_n_wf : DotDims.WF S100000x128 S128x64 S100000x64 [1] [0] [0] [1] [] []
  dot_S200000x128_S128x64_S200000x64_1_0_0_1_n_n_wf : DotDims.WF S200000x128 S128x64 S200000x64 [1] [0] [0] [1] [] []
  gather_S200000x64_S1000000x1_S1000000x64_1_0_n_n_0_1_164_wf : GatherDims.WF S200000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.Spec.lean ====
/-
  One row of a rectified dense layer, and one row of a mean-aggregation layer followed by a two-layer prediction
  head, over the extended reals.

  A dense layer sends a row `xr` of its input to the row whose entry `q` is `max (∑ l, xr l * W (l, q) + b q) 0`
  (`denseRow`).  The aggregation layer divides a row `ms` of summed messages by `max cn 1`, `cn` the number of
  messages that reached the row (`aggRow`); the new features are `max ((agg · Wl + bl) + (lh · Wr)) 0` (`newRow`),
  the hidden features `max (new · Wh1 + bh1) 0` (`hidRow`) and the output the number `hid · Wh2 + bh2`
  (`headRow`).  Every quantity of a row depends on that row of the inputs only, which is what lets a computation
  done block of rows by block of rows be compared with one done on whole arrays.  The zero and the one are kept as
  the values the float words denote; nothing here evaluates them.
-/
import Idealize.ShloMosaic.Lib.ValueIdx
import Idealize.ShloMosaic.PureOps.Ideal.Laws

noncomputable section

open scoped BigOperators

namespace Gnn

open Idealize.ShloMosaic Idealize.ShloMosaic.ValueIdx

/-- The value of the all-zero single-precision word. -/
def zeroE : EReal := Ideal.ofBits .f32 0x00000000#32
/-- The value of the single-precision word of the number one. -/
def oneE : EReal := Ideal.ofBits .f32 0x3F800000#32

/-- The rectifier. -/
def relu (a : EReal) : EReal := max a zeroE

/-- Entry `q` of a row times a matrix. -/
def dotRow {k m : ℕ} (xr : Fin k → EReal) (W : (⟨2, ![k, m]⟩ : Shape).Idx → EReal) (q : Fin m) : EReal :=
  ∑ l : Fin k, xr l * W (ix2 l q)

/-- Entry `q` of one row of a dense layer with bias, rectified. -/
def denseRow {k m : ℕ} (xr : Fin k → EReal) (W : (⟨2, ![k, m]⟩ : Shape).Idx → EReal) (b : Fin m → EReal) (q : Fin m) : EReal :=
  relu (dotRow xr W q + b q)

/-- The mean of the messages that reached a row: their sum over `max count 1`. -/
def aggRow {h : ℕ} (ms : Fin h → EReal) (cn : EReal) (l : Fin h) : EReal :=
  Ideal.div (ms l) (max cn oneE)

/-- The row's new features: the aggregated messages through `Wl` with bias, plus the row's own features through `Wr`,
    rectified. -/
def newRow {h : ℕ} (ms : Fin h → EReal) (cn : EReal) (lh : Fin h → EReal)
    (Wl : (⟨2, ![h, h]⟩ : Shape).Idx → EReal) (bl : Fin h → EReal) (Wr : (⟨2, ![h, h]⟩ : Shape).Idx → EReal) (q : Fin h) : EReal :=
  relu ((dotRow (aggRow ms cn) Wl q + bl q) + dotRow lh Wr q)

/-- The head's hidden layer on the new features. -/
def hidRow {h g : ℕ} (ms : Fin h → EReal) (cn : EReal) (lh : Fin h → EReal)
    (Wl : (⟨2, ![h, h]⟩ : Shape).Idx → EReal) (bl : Fin h → EReal) (Wr : (⟨2, ![h, h]⟩ : Shape).Idx → EReal)
    (Wh1 : (⟨2, ![h, g]⟩ : Shape).Idx → EReal) (bh1 : Fin g → EReal) (q : Fin g) : EReal :=
  denseRow (newRow ms cn lh Wl bl Wr) Wh1 bh1 q

/-- The row's output: the hidden features through the last layer, plus its bias. -/
def headRow {h g : ℕ} (ms : Fin h → EReal) (cn : EReal) (lh : Fin h → EReal)
    (Wl : (⟨2, ![h, h]⟩ : Shape).Idx → EReal) (bl : Fin h → EReal) (Wr : (⟨2, ![h, h]⟩ : Shape).Idx → EReal)
    (Wh1 : (⟨2, ![h, g]⟩ : Shape).Idx → EReal) (bh1 : Fin g → EReal)
    (Wh2 : (⟨2, ![g, 1]⟩ : Shape).Idx → EReal) (bh2 : EReal) : EReal :=
  dotRow (hidRow ms cn lh Wl bl Wr Wh1 bh1) Wh2 (0 : Fin 1) + bh2

/-! ## The same on whole arrays: row `P` of the result from row `P` of the inputs -/

/-- The dense layer on an array of `n` rows, the bias given as a one-row array. -/
def denseArr {n k m : ℕ} (X : (⟨2, ![n, k]⟩ : Shape).Idx → EReal) (W : (⟨2, ![k, m]⟩ : Shape).Idx → EReal)
    (b2 : (⟨2, ![1, m]⟩ : Shape).Idx → EReal) : (⟨2, ![n, m]⟩ : Shape).Idx → EReal :=
  fun i => denseRow (fun l => X (ix2 ⟨(i 0).val, idx2_lt0 i⟩ l)) W (fun q => b2 (ix2 (0 : Fin 1) q)) ⟨(i 1).val, idx2_lt1 i⟩

/-- The aggregation layer and head on arrays of `n` rows, the counts a one-column array and the biases one-row arrays. -/
def headArr {n h g : ℕ} (MS : (⟨2, ![n, h]⟩ : Shape).Idx → EReal) (CN : (⟨2, ![n, 1]⟩ : Shape).Idx → EReal)
    (LH : (⟨2, ![n, h]⟩ : Shape).Idx → EReal)
    (Wl : (⟨2, ![h, h]⟩ : Shape).Idx → EReal) (bl2 : (⟨2, ![1, h]⟩ : Shape).Idx → EReal) (Wr : (⟨2, ![h, h]⟩ : Shape).Idx → EReal)
    (Wh1 : (⟨2, ![h, g]⟩ : Shape).Idx → EReal) (bh1 : (⟨2, ![1, g]⟩ : Shape).Idx → EReal)
    (Wh2 : (⟨2, ![g, 1]⟩ : Shape).Idx → EReal) (bh2 : (⟨2, ![1, 1]⟩ : Shape).Idx → EReal) :
    (⟨2, ![n, 1]⟩ : Shape).Idx → EReal :=
  fun i => headRow (fun l => MS (ix2 ⟨(i 0).val, idx2_lt0 i⟩ l)) (CN (ix2 ⟨(i 0).val, idx2_lt0 i⟩ (0 : Fin 1)))
    (fun l => LH (ix2 ⟨(i 0).val, idx2_lt0 i⟩ l)) Wl (fun q => bl2 (ix2 (0 : Fin 1) q)) Wr Wh1
    (fun q => bh1 (ix2 (0 : Fin 1) q)) Wh2 (bh2 (ix2 (0 : Fin 1) (0 : Fin 1)))

end Gnn

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.Pay01.lean ====
/-
  What the two projection kernels store, entry by entry.

  Each kernel body loads a block of 4000 rows of the input, the whole weight matrix and the bias as a one-row array,
  multiplies the first two on the matrix unit onto a zero accumulator, adds the bias row to every row and rectifies.
  Over the extended reals a change of float format is the identity and the matrix unit's product onto the zero
  accumulator is the sum over the contracted axis, so entry (p, q) of the stored block is the dense-layer row
  function of row p of the input block.  The two kernels have the same body; the statement is made for each.
-/
import proofs.«113650_j43576738185766_2_alg».proof.Proof.Gen.KernelIdeal.Skeleton
import proofs.«113650_j43576738185766_2_alg».proof.Proof.Spec
import proofs.«113650_j43576738185766_2_alg».proof.Proof.LibMatProd
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Cert.KernelIdeal Cert.KernelIdeal.Gen Idealize.ShloMosaic Idealize.ShloMosaic.ValueIdx

/-! ## The projection's dimension numbers, coordinate by coordinate -/

/-- The projection contracts the columns of a 4000 × 128 block against the rows of the 128 × 64 weights. -/
abbrev Dproj : DotDims S4000x128 S128x64 S4000x64 := dot_S4000x128_S128x64_S4000x64_1_0_0_1_n_n

theorem proj_l0 (j) (c : Dproj.contr.Idx) : ((Dproj).lhsIdx j c 0).val = (j 0).val := by
  unfold DotDims.lhsIdx
  rw [dif_neg (show ¬(0 : Fin S4000x128.rank) ∈ (Dproj).lhsBatch by decide), dif_pos (show (0 : Fin S4000x128.rank) ∈ (Dproj).lhsNonContracting by decide)]
  rfl
theorem proj_l1 (j) (c : Dproj.contr.Idx) : ((Dproj).lhsIdx j c 1).val = (c ⟨0, by decide⟩).val :=
  (Dproj).lhsIdx_val_of_single rfl j c
theorem proj_r0 (j) (c : Dproj.contr.Idx) : ((Dproj).rhsIdx j c 0).val = (c ⟨0, by decide⟩).val :=
  (Dproj).rhsIdx_val_of_single rfl j c
theorem proj_r1 (j) (c : Dproj.contr.Idx) : ((Dproj).rhsIdx j c 1).val = (j 1).val := by
  unfold DotDims.rhsIdx
  rw [dif_neg (show ¬(1 : Fin S128x64.rank) ∈ (Dproj).rhsBatch by decide), dif_pos (show (1 : Fin S128x64.rank) ∈ (Dproj).rhsNonContracting by decide)]
  rfl

/-- The matrix unit's product of the (format-changed) block and weights onto zero, at (p, q): row p of the block
    times column q of the weights. -/
theorem proj_entry (x0 : Vec Ideal S4000x128 .f32) (x1 : Vec Ideal S128x64 .f32) (p : Fin 4000) (q : Fin 64) :
    matmul (F := Ideal) Dproj none (truncf (F := Ideal) .bf16 x0 bitsLt_bf16_f32) (truncf (F := Ideal) .bf16 x1 bitsLt_bf16_f32)
        (constant (F := Ideal) S4000x64 .f32 0x00000000#32) (ix2 p q)
      = Gnn.dotRow (fun l => x0 (ix2 p l)) x1 q :=
  MatProd.matmul_zero_entry Dproj none rfl rfl proj_l0 proj_l1 proj_r0 proj_r1 _ _ p q

/-- A one-row array, cast to its own shape and broadcast over 4000 rows, reads its entry of the column. -/
theorem bias_row64 (x2 : Vec Ideal S1x64 .f32) (p : Fin 4000) (q : Fin 64) :
    broadcastTo S4000x64 (shapeCast S1x64 x2 shapeCasts_S1x64_S1x64) broadcasts_S1x64_S4000x64 (ix2 p q)
      = x2 (ix2 (0 : Fin 1) q) := by
  rw [shapeCast_self]
  exact broadcastTo_1b_ab_apply x2 _ p q

/-- Entry (p, q) of what the location projection stores. -/
theorem pay0 (x0 : Vec Ideal S4000x128 .f32) (x1 : Vec Ideal S128x64 .f32) (x2 : Vec Ideal S1x64 .f32)
    (p : Fin 4000) (q : Fin 64) :
    k0_pay1 (F := Ideal) x0 x1 x2 (ix2 p q)
      = Gnn.denseRow (fun l => x0 (ix2 p l)) x1 (fun q' => x2 (ix2 (0 : Fin 1) q')) q := by
  unfold k0_pay1
  exact congrArg₂ max (congrArg₂ (· + ·) (proj_entry x0 x1 p q) (bias_row64 x2 p q)) rfl

/-- Entry (p, q) of what the event projection stores. -/
theorem pay1 (x0 : Vec Ideal S4000x128 .f32) (x1 : Vec Ideal S128x64 .f32) (x2 : Vec Ideal S1x64 .f32)
    (p : Fin 4000) (q : Fin 64) :
    k1_pay1 (F := Ideal) x0 x1 x2 (ix2 p q)
      = Gnn.denseRow (fun l => x0 (ix2 p l)) x1 (fun q' => x2 (ix2 (0 : Fin 1) q')) q := by
  unfold k1_pay1
  exact congrArg₂ max (congrArg₂ (· + ·) (proj_entry x0 x1 p q) (bias_row64 x2 p q)) rfl

end Cert.KernelIdeal.Bridge

end
-- ==== Proof.Region0.lean ====
/-
  The location projection's result array as one function of the arrays the launch finds.

  The launch walks 25 grid points; point t stages rows 4000 t … 4000 t + 3999 of the input, the whole weight matrix and
  the whole one-row bias, and writes back rows 4000 t … 4000 t + 3999 of the result.  What point t writes back is
  therefore the block of the dense layer of the whole input (entry (p, q) of the stored block depends on row p of the
  input block only, which is row 4000 t + p of the input), and the blocks of the 25 points tile the 100000 rows:
  the array ends holding the dense layer of the whole input.  The contents the launch finds are a parameter.
-/
import proofs.«113650_j43576738185766_2_alg».proof.Proof.Gen.KernelIdeal.Frame
import proofs.«113650_j43576738185766_2_alg».proof.Proof.Pay01
import Idealize.ShloMosaic.Lib.Pipeline.Value

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the grid: the input and the result move down one block of rows per point, the weights
    and the bias stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `j` of what a point stores, from blocks that are rows `base + p` of an input array `X`, the whole weights
    `W` and the whole bias row `b2`: the dense layer of `X` at the array index `i` under `j`. -/
theorem dense_block0 (X : S100000x128.Idx → EReal) (W : S128x64.Idx → EReal) (b2 : S1x64.Idx → EReal)
    (x0 : Vec Ideal S4000x128 .f32) (x1 : Vec Ideal S128x64 .f32) (x2 : Vec Ideal S1x64 .f32) (base : ℕ)
    (h0 : ∀ (y : S4000x128.Idx) (k : S100000x128.Idx), (k 0).val = base + (y 0).val → (k 1).val = (y 1).val → x0 y = X k)
    (h1 : x1 = W) (h2 : x2 = b2)
    (j : S4000x64.Idx) (i : S100000x64.Idx) (hi0 : (i 0).val = base + (j 0).val) (hi1 : (i 1).val = (j 1).val) :
    k0_pay1 (F := Ideal) x0 x1 x2 j = Gnn.denseArr X W b2 i := by
  subst h1 h2
  obtain ⟨p, q, rfl⟩ : ∃ (p : Fin 4000) (q : Fin 64), j = ix2 p q := ⟨j 0, j 1, eq_ix2 j⟩
  obtain ⟨P, Q, rfl⟩ : ∃ (P : Fin 100000) (Q : Fin 64), i = ix2 P Q := ⟨i 0, i 1, eq_ix2 i⟩
  have hQ : Q = q := Fin.ext hi1
  subst hQ
  rw [pay0]
  show Gnn.denseRow _ x1 _ Q = Gnn.denseRow (fun l => X (ix2 P l)) x1 _ Q
  refine congrArg (fun xr => Gnn.denseRow xr x1 (fun q' => x2 (ix2 (0 : Fin 1) q')) Q) (funext fun l => ?_)
  exact h0 (ix2 p l) (ix2 P l) hi0 rfl

/-- An index of the result array is in point `t`'s block iff each coordinate is in the block's range on its axis. -/
theorem mem_blk0 (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v1).slice (win0_3.rect t)).set ↔ _
  rw [View.set_slice_whole, Rect.mem_set_unit]
  exact Iff.rfl

/-- What point `t` writes back is its block of the dense layer of the arrays the launch finds. -/
theorem flushed0 (c : Dev nD) (t : Fin cfg0.N) :
    (dat0 V c).flushed 3 t = ((cfg0.win 3).blk t).view.read (Elt Ideal)
      (Gnn.denseArr (V c main_arg0 : S100000x128.Idx → EReal) (V c main_arg3 : S128x64.Idx → EReal) (V c main_v0 : S1x64.Idx → EReal)) := by
  show (cfg0.win 3).cut (grid0.coords t) ((dat0 V c).after 3 t) = _
  rw [after0_3]
  unfold out0_3
  rw [View.canon_unit_zero hz0]
  simp only [View.ld_unit_zero (S := S4000x128) hz0, View.ld_unit_zero (S := S128x64) hz0, View.ld_unit_zero (S := S1x64) hz0]
  obtain ⟨e0, e1, e2, e3, e4, e5, e6, e7⟩ := idx0 t
  have hW : (iblk0 V c 1 t : Vec Ideal S128x64 .f32) = (V c main_arg3 : S128x64.Idx → EReal) := by
    funext y
    unfold iblk0
    rw [View.read_apply]
    show (V c main_arg3 : S128x64.Idx → EReal) (((cfg0.win 1).blk t).view.emb y) = (V c main_arg3 : S128x64.Idx → EReal) y
    refine congrArg _ (funext fun a => Fin.ext ?_)
    match a with
    | ⟨0, _⟩ => show win0_1.index t (0 : Fin 2) * 128 + 1 * (y 0).val = (y 0).val; rw [e2]; omega
    | ⟨1, _⟩ => show win0_1.index t (1 : Fin 2) * 64 + 1 * (y 1).val = (y 1).val; rw [e3]; omega
  have hB : (iblk0 V c 2 t : Vec Ideal S1x64 .f32) = (V c main_v0 : S1x64.Idx → EReal) := by
    funext y
    unfold iblk0
    rw [View.read_apply]
    show (V c main_v0 : S1x64.Idx → EReal) (((cfg0.win 2).blk t).view.emb y) = (V c main_v0 : S1x64.Idx → EReal) y
    refine congrArg _ (funext fun a => Fin.ext ?_)
    match a with
    | ⟨0, _⟩ => show win0_2.index t (0 : Fin 2) * 1 + 1 * (y 0).val = (y 0).val; rw [e4]; omega
    | ⟨1, _⟩ => show win0_2.index t (1 : Fin 2) * 64 + 1 * (y 1).val = (y 1).val; rw [e5]; omega
  have hX : ∀ (y : S4000x128.Idx) (k : S100000x128.Idx), (k 0).val = t.val * 4000 + (y 0).val → (k 1).val = (y 1).val →
      (iblk0 V c 0 t : Vec Ideal S4000x128 .f32) y = (V c main_arg0 : S100000x128.Idx → EReal) k := by
    intro y k hk0 hk1
    unfold iblk0
    rw [View.read_apply]
    show (V c main_arg0 : S100000x128.Idx → EReal) (((cfg0.win 0).blk t).view.emb y) = (V c main_arg0 : S100000x128.Idx → EReal) k
    refine congrArg _ (funext fun a => Fin.ext ?_)
    match a with
    | ⟨0, _⟩ => show win0_0.index t (0 : Fin 2) * 4000 + 1 * (y 0).val = (k 0).val; rw [e0, hk0]; omega
    | ⟨1, _⟩ => show win0_0.index t (1 : Fin 2) * 128 + 1 * (y 1).val = (k 1).val; rw [e1, hk1]; omega
  funext j
  show k0_pay1 (F := Ideal) (iblk0 V c 0 t) (iblk0 V c 1 t) (iblk0 V c 2 t) j
    = Gnn.denseArr (V c main_arg0 : S100000x128.Idx → EReal) (V c main_arg3 : S128x64.Idx → EReal) (V c main_v0 : S1x64.Idx → EReal)
        (((cfg0.win 3).blk t).view.emb j)
  refine dense_block0 (V c main_arg0) (V c main_arg3) (V c main_v0) (iblk0 V c 0 t) (iblk0 V c 1 t) (iblk0 V c 2 t) (t.val * 4000) hX hW hB j _ ?_ ?_
  · show win0_3.index t (0 : Fin 2) * 4000 + 1 * (j 0).val = t.val * 4000 + (j 0).val
    rw [e6]; omega
  · show win0_3.index t (1 : Fin 2) * 64 + 1 * (j 1).val = (j 1).val
    rw [e7]; omega

/-- Every index of the result array is in the block of the point its row falls in. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 25 := N_0
  have ht : (i 0).val / 4000 < cfg0.N := by rw [hN]; omega
  refine ⟨⟨(i 0).val / 4000, ht⟩, flush0_3 _, ?_⟩
  rw [mem_blk0]
  obtain ⟨e0, e1, e2, e3, e4, e5, e6, e7⟩ := idx0 ⟨(i 0).val / 4000, ht⟩
  intro a
  match a with
  | ⟨0, _⟩ =>
    show win0_3.index ⟨(i 0).val / 4000, ht⟩ (0 : Fin 2) * 4000 ≤ (i 0).val ∧ (i 0).val < win0_3.index ⟨(i 0).val / 4000, ht⟩ (0 : Fin 2) * 4000 + 4000
    rw [e6]
    show (i 0).val / 4000 * 4000 ≤ (i 0).val ∧ (i 0).val < (i 0).val / 4000 * 4000 + 4000
    omega
  | ⟨1, _⟩ =>
    show win0_3.index ⟨(i 0).val / 4000, ht⟩ (1 : Fin 2) * 64 ≤ (i 1).val ∧ (i 1).val < win0_3.index ⟨(i 0).val / 4000, ht⟩ (1 : Fin 2) * 64 + 64
    rw [e7]
    omega

/-- The result array after the launch: the dense layer of the arrays the launch finds. -/
theorem final0 (c : Dev nD) : (dat0 V c).arrAt 3 cfg0.N
    = Gnn.denseArr (V c main_arg0 : S100000x128.Idx → EReal) (V c main_arg3 : S128x64.Idx → EReal) (V c main_v0 : S1x64.Idx → EReal) :=
  (dat0 V c).arrAt_eq_of_cover 3 _ (fun t _ => flushed0 V c t) cover0

end Cert.KernelIdeal.Bridge

end
-- ==== Proof.Region1.lean ====
/-
  The event projection's result array as one function of the arrays the launch finds.

  The launch walks 50 grid points; point t stages rows 4000 t … 4000 t + 3999 of the input, the whole weight matrix and
  the whole one-row bias, and writes back rows 4000 t … 4000 t + 3999 of the result.  What point t writes back is
  therefore the block of the dense layer of the whole input (entry (p, q) of the stored block depends on row p of the
  input block only, which is row 4000 t + p of the input), and the blocks of the 50 points tile the 200000 rows:
  the array ends holding the dense layer of the whole input.  The contents the launch finds are a parameter.
-/
import proofs.«113650_j43576738185766_2_alg».proof.Proof.Gen.KernelIdeal.Frame
import proofs.«113650_j43576738185766_2_alg».proof.Proof.Pay01
import Idealize.ShloMosaic.Lib.Pipeline.Value

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the grid: the input and the result move down one block of rows per point, the weights
    and the bias stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `j` of what a point stores, from blocks that are rows `base + p` of an input array `X`, the whole weights
    `W` and the whole bias row `b2`: the dense layer of `X` at the array index `i` under `j`. -/
theorem dense_block1 (X : S200000x128.Idx → EReal) (W : S128x64.Idx → EReal) (b2 : S1x64.Idx → EReal)
    (x0 : Vec Ideal S4000x128 .f32) (x1 : Vec Ideal S128x64 .f32) (x2 : Vec Ideal S1x64 .f32) (base : ℕ)
    (h0 : ∀ (y : S4000x128.Idx) (k : S200000x128.Idx), (k 0).val = base + (y 0).val → (k 1).val = (y 1).val → x0 y = X k)
    (h1 : x1 = W) (h2 : x2 = b2)
    (j : S4000x64.Idx) (i : S200000x64.Idx) (hi0 : (i 0).val = base + (j 0).val) (hi1 : (i 1).val = (j 1).val) :
    k1_pay1 (F := Ideal) x0 x1 x2 j = Gnn.denseArr X W b2 i := by
  subst h1 h2
  obtain ⟨p, q, rfl⟩ : ∃ (p : Fin 4000) (q : Fin 64), j = ix2 p q := ⟨j 0, j 1, eq_ix2 j⟩
  obtain ⟨P, Q, rfl⟩ : ∃ (P : Fin 200000) (Q : Fin 64), i = ix2 P Q := ⟨i 0, i 1, eq_ix2 i⟩
  have hQ : Q = q := Fin.ext hi1
  subst hQ
  rw [pay1]
  show Gnn.denseRow _ x1 _ Q = Gnn.denseRow (fun l => X (ix2 P l)) x1 _ Q
  refine congrArg (fun xr => Gnn.denseRow xr x1 (fun q' => x2 (ix2 (0 : Fin 1) q')) Q) (funext fun l => ?_)
  exact h0 (ix2 p l) (ix2 P l) hi0 rfl

/-- An index of the result array is in point `t`'s block iff each coordinate is in the block's range on its axis. -/
theorem mem_blk1 (t : Fin cfg1.N) (i : S200000x64.Idx) :
    i ∈ ((cfg1.win 3).blk t).view.set ↔ ∀ a : Fin 2, win1_3.index t a * S4000x64.size a ≤ (i a).val ∧ (i a).val < win1_3.index t a * S4000x64.size a + S4000x64.size a := by
  show i ∈ ((View.whole main_v3).slice (win1_3.rect t)).set ↔ _
  rw [View.set_slice_whole, Rect.mem_set_unit]
  exact Iff.rfl

/-- What point `t` writes back is its block of the dense layer of the arrays the launch finds. -/
theorem flushed1 (c : Dev nD) (t : Fin cfg1.N) :
    (dat1 V c).flushed 3 t = ((cfg1.win 3).blk t).view.read (Elt Ideal)
      (Gnn.denseArr (V c main_arg1 : S200000x128.Idx → EReal) (V c main_arg5 : S128x64.Idx → EReal) (V c main_v2 : S1x64.Idx → EReal)) := by
  show (cfg1.win 3).cut (grid1.coords t) ((dat1 V c).after 3 t) = _
  rw [after1_3]
  unfold out1_3
  rw [View.canon_unit_zero hz1]
  simp only [View.ld_unit_zero (S := S4000x128) hz1, View.ld_unit_zero (S := S128x64) hz1, View.ld_unit_zero (S := S1x64) hz1]
  obtain ⟨e0, e1, e2, e3, e4, e5, e6, e7⟩ := idx1 t
  have hW : (iblk1 V c 1 t : Vec Ideal S128x64 .f32) = (V c main_arg5 : S128x64.Idx → EReal) := by
    funext y
    unfold iblk1
    rw [View.read_apply]
    show (V c main_arg5 : S128x64.Idx → EReal) (((cfg1.win 1).blk t).view.emb y) = (V c main_arg5 : S128x64.Idx → EReal) y
    refine congrArg _ (funext fun a => Fin.ext ?_)
    match a with
    | ⟨0, _⟩ => show win1_1.index t (0 : Fin 2) * 128 + 1 * (y 0).val = (y 0).val; rw [e2]; omega
    | ⟨1, _⟩ => show win1_1.index t (1 : Fin 2) * 64 + 1 * (y 1).val = (y 1).val; rw [e3]; omega
  have hB : (iblk1 V c 2 t : Vec Ideal S1x64 .f32) = (V c main_v2 : S1x64.Idx → EReal) := by
    funext y
    unfold iblk1
    rw [View.read_apply]
    show (V c main_v2 : S1x64.Idx → EReal) (((cfg1.win 2).blk t).view.emb y) = (V c main_v2 : S1x64.Idx → EReal) y
    refine congrArg _ (funext fun a => Fin.ext ?_)
    match a with
    | ⟨0, _⟩ => show win1_2.index t (0 : Fin 2) * 1 + 1 * (y 0).val = (y 0).val; rw [e4]; omega
    | ⟨1, _⟩ => show win1_2.index t (1 : Fin 2) * 64 + 1 * (y 1).val = (y 1).val; rw [e5]; omega
  have hX : ∀ (y : S4000x128.Idx) (k : S200000x128.Idx), (k 0).val = t.val * 4000 + (y 0).val → (k 1).val = (y 1).val →
      (iblk1 V c 0 t : Vec Ideal S4000x128 .f32) y = (V c main_arg1 : S200000x128.Idx → EReal) k := by
    intro y k hk0 hk1
    unfold iblk1
    rw [View.read_apply]
    show (V c main_arg1 : S200000x128.Idx → EReal) (((cfg1.win 0).blk t).view.emb y) = (V c main_arg1 : S200000x128.Idx → EReal) k
    refine congrArg _ (funext fun a => Fin.ext ?_)
    match a with
    | ⟨0, _⟩ => show win1_0.index t (0 : Fin 2) * 4000 + 1 * (y 0).val = (k 0).val; rw [e0, hk0]; omega
    | ⟨1, _⟩ => show win1_0.index t (1 : Fin 2) * 128 + 1 * (y 1).val = (k 1).val; rw [e1, hk1]; omega
  funext j
  show k1_pay1 (F := Ideal) (iblk1 V c 0 t) (iblk1 V c 1 t) (iblk1 V c 2 t) j
    = Gnn.denseArr (V c main_arg1 : S200000x128.Idx → EReal) (V c main_arg5 : S128x64.Idx → EReal) (V c main_v2 : S1x64.Idx → EReal)
        (((cfg1.win 3).blk t).view.emb j)
  refine dense_block1 (V c main_arg1) (V c main_arg5) (V c main_v2) (iblk1 V c 0 t) (iblk1 V c 1 t) (iblk1 V c 2 t) (t.val * 4000) hX hW hB j _ ?_ ?_
  · show win1_3.index t (0 : Fin 2) * 4000 + 1 * (j 0).val = t.val * 4000 + (j 0).val
    rw [e6]; omega
  · show win1_3.index t (1 : Fin 2) * 64 + 1 * (j 1).val = (j 1).val
    rw [e7]; omega

/-- Every index of the result array is in the block of the point its row falls in. -/
theorem cover1 (i : S200000x64.Idx) : ∃ t : Fin cfg1.N, (cfg1.win 3).flush t = true ∧ i ∈ ((cfg1.win 3).blk t).view.set := by
  have hi0 : (i 0).val < 200000 := (i 0).isLt
  have hi1 : (i 1).val < 64 := (i 1).isLt
  have hN : cfg1.N = 50 := N_1
  have ht : (i 0).val / 4000 < cfg1.N := by rw [hN]; omega
  refine ⟨⟨(i 0).val / 4000, ht⟩, flush1_3 _, ?_⟩
  rw [mem_blk1]
  obtain ⟨e0, e1, e2, e3, e4, e5, e6, e7⟩ := idx1 ⟨(i 0).val / 4000, ht⟩
  intro a
  match a with
  | ⟨0, _⟩ =>
    show win1_3.index ⟨(i 0).val / 4000, ht⟩ (0 : Fin 2) * 4000 ≤ (i 0).val ∧ (i 0).val < win1_3.index ⟨(i 0).val / 4000, ht⟩ (0 : Fin 2) * 4000 + 4000
    rw [e6]
    show (i 0).val / 4000 * 4000 ≤ (i 0).val ∧ (i 0).val < (i 0).val / 4000 * 4000 + 4000
    omega
  | ⟨1, _⟩ =>
    show win1_3.index ⟨(i 0).val / 4000, ht⟩ (1 : Fin 2) * 64 ≤ (i 1).val ∧ (i 1).val < win1_3.index ⟨(i 0).val / 4000, ht⟩ (1 : Fin 2) * 64 + 64
    rw [e7]
    omega

/-- The result array after the launch: the dense layer of the arrays the launch finds. -/
theorem final1 (c : Dev nD) : (dat1 V c).arrAt 3 cfg1.N
    = Gnn.denseArr (V c main_arg1 : S200000x128.Idx → EReal) (V c main_arg5 : S128x64.Idx → EReal) (V c main_v2 : S1x64.Idx → EReal) :=
  (dat1 V c).arrAt_eq_of_cover 3 _ (fun t _ => flushed1 V c t) cover1

end Cert.KernelIdeal.Bridge

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.Pay2.lean ====
/-
  What the combine-and-head kernel stores, entry by entry.

  The body loads a block of 4000 rows of the summed messages, of the message counts (one column) and of the location
  features, and the six weight and bias arrays whole.  It divides each row of summed messages by `max count 1`,
  sends the quotient through `Wl` with its bias row, adds the location features through `Wr`, rectifies, applies the
  hidden layer `Wh1` with its bias row and rectifier, and the last layer `Wh2` with its one-entry bias.  Over the
  extended reals every matrix product is the sum over its contracted axis and a change of float format is the
  identity, so entry p of the stored column is the head's row function of row p of the three blocks.  The four stages
  are named here as whole-block functions so that each can be read at an entry from the one before.
-/
import proofs.«113650_j43576738185766_2_alg».proof.Proof.Gen.KernelIdeal.Skeleton
import proofs.«113650_j43576738185766_2_alg».proof.Proof.Spec
import proofs.«113650_j43576738185766_2_alg».proof.Proof.LibMatProd
import proofs.«113650_j43576738185766_2_alg».proof.Proof.LibRowCol
import proofs.«113650_j43576738185766_2_alg».proof.Proof.Pay01
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Cert.KernelIdeal Cert.KernelIdeal.Gen Idealize.ShloMosaic Idealize.ShloMosaic.ValueIdx

/-! ## The three products' dimension numbers, coordinate by coordinate -/

/-- A 4000 × 64 block against 64 × 64 weights. -/
abbrev Dsq : DotDims S4000x64 S64x64 S4000x64 := dot_S4000x64_S64x64_S4000x64_1_0_0_1_n_n

theorem sq_l0 (j) (c : Dsq.contr.Idx) : ((Dsq).lhsIdx j c 0).val = (j 0).val := by
  unfold DotDims.lhsIdx
  rw [dif_neg (show ¬(0 : Fin S4000x64.rank) ∈ (Dsq).lhsBatch by decide), dif_pos (show (0 : Fin S4000x64.rank) ∈ (Dsq).lhsNonContracting by decide)]
  rfl
theorem sq_l1 (j) (c : Dsq.contr.Idx) : ((Dsq).lhsIdx j c 1).val = (c ⟨0, by decide⟩).val :=
  (Dsq).lhsIdx_val_of_single rfl j c
theorem sq_r0 (j) (c : Dsq.contr.Idx) : ((Dsq).rhsIdx j c 0).val = (c ⟨0, by decide⟩).val :=
  (Dsq).rhsIdx_val_of_single rfl j c
theorem sq_r1 (j) (c : Dsq.contr.Idx) : ((Dsq).rhsIdx j c 1).val = (j 1).val := by
  unfold DotDims.rhsIdx
  rw [dif_neg (show ¬(1 : Fin S64x64.rank) ∈ (Dsq).rhsBatch by decide), dif_pos (show (1 : Fin S64x64.rank) ∈ (Dsq).rhsNonContracting by decide)]
  rfl

/-- A 4000 × 64 block against 64 × 32 weights. -/
abbrev Dhid : DotDims S4000x64 S64x32 S4000x32 := dot_S4000x64_S64x32_S4000x32_1_0_0_1_n_n

theorem hid_l0 (j) (c : Dhid.contr.Idx) : ((Dhid).lhsIdx j c 0).val = (j 0).val := by
  unfold DotDims.lhsIdx
  rw [dif_neg (show ¬(0 : Fin S4000x64.rank) ∈ (Dhid).lhsBatch by decide), dif_pos (show (0 : Fin S4000x64.rank) ∈ (Dhid).lhsNonContracting by decide)]
  rfl
theorem hid_l1 (j) (c : Dhid.contr.Idx) : ((Dhid).lhsIdx j c 1).val = (c ⟨0, by decide⟩).val :=
  (Dhid).lhsIdx_val_of_single rfl j c
theorem hid_r0 (j) (c : Dhid.contr.Idx) : ((Dhid).rhsIdx j c 0).val = (c ⟨0, by decide⟩).val :=
  (Dhid).rhsIdx_val_of_single rfl j c
theorem hid_r1 (j) (c : Dhid.contr.Idx) : ((Dhid).rhsIdx j c 1).val = (j 1).val := by
  unfold DotDims.rhsIdx
  rw [dif_neg (show ¬(1 : Fin S64x32.rank) ∈ (Dhid).rhsBatch by decide), dif_pos (show (1 : Fin S64x32.rank) ∈ (Dhid).rhsNonContracting by decide)]
  rfl

/-- A 4000 × 32 block against 32 × 1 weights. -/
abbrev Dout : DotDims S4000x32 S32x1 S4000x1 := dot_S4000x32_S32x1_S4000x1_1_0_0_1_n_n

theorem out_l0 (j) (c : Dout.contr.Idx) : ((Dout).lhsIdx j c 0).val = (j 0).val := by
  unfold DotDims.lhsIdx
  rw [dif_neg (show ¬(0 : Fin S4000x32.rank) ∈ (Dout).lhsBatch by decide), dif_pos (show (0 : Fin S4000x32.rank) ∈ (Dout).lhsNonContracting by decide)]
  rfl
theorem out_l1 (j) (c : Dout.contr.Idx) : ((Dout).lhsIdx j c 1).val = (c ⟨0, by decide⟩).val :=
  (Dout).lhsIdx_val_of_single rfl j c
theorem out_r0 (j) (c : Dout.contr.Idx) : ((Dout).rhsIdx j c 0).val = (c ⟨0, by decide⟩).val :=
  (Dout).rhsIdx_val_of_single rfl j c
theorem out_r1 (j) (c : Dout.contr.Idx) : ((Dout).rhsIdx j c 1).val = (j 1).val := by
  unfold DotDims.rhsIdx
  rw [dif_neg (show ¬(1 : Fin S32x1.rank) ∈ (Dout).rhsBatch by decide), dif_pos (show (1 : Fin S32x1.rank) ∈ (Dout).rhsNonContracting by decide)]
  rfl

/-! ## The stages as whole-block functions -/

/-- The mean of the messages: the summed messages over `max count 1`, the count's column broadcast along the row. -/
def aggV (x0 : Vec Ideal S4000x64 .f32) (x1 : Vec Ideal S4000x1 .f32) : FVec Ideal S4000x64 .f32 :=
  divf (shapeCast S4000x64 x0 shapeCasts_S4000x64_S4000x64)
    (broadcastTo S4000x64 (maximumf (shapeCast S4000x1 x1 shapeCasts_S4000x1_S4000x1)
      (broadcast S4000x1 (Scalar.ofBits (F := Ideal) .f32 0x3F800000#32))) broadcasts_S4000x1_S4000x64)

/-- The new location features. -/
def newV (x0 : Vec Ideal S4000x64 .f32) (x1 : Vec Ideal S4000x1 .f32) (x2 : Vec Ideal S4000x64 .f32)
    (x3 : Vec Ideal S64x64 .f32) (x4 : Vec Ideal S1x64 .f32) (x5 : Vec Ideal S64x64 .f32) : FVec Ideal S4000x64 .f32 :=
  maximumf
    (addf
      (addf (matmul (F := Ideal) Dsq none (truncf (F := Ideal) .bf16 (aggV x0 x1) bitsLt_bf16_f32) (truncf (F := Ideal) .bf16 x3 bitsLt_bf16_f32)
          (constant (F := Ideal) S4000x64 .f32 0x00000000#32))
        (broadcastTo S4000x64 (shapeCast S1x64 x4 shapeCasts_S1x64_S1x64) broadcasts_S1x64_S4000x64))
      (matmul (F := Ideal) Dsq none (truncf (F := Ideal) .bf16 (shapeCast S4000x64 x2 shapeCasts_S4000x64_S4000x64) bitsLt_bf16_f32)
        (truncf (F := Ideal) .bf16 x5 bitsLt_bf16_f32) (constant (F := Ideal) S4000x64 .f32 0x00000000#32)))
    (broadcast S4000x64 (Scalar.ofBits (F := Ideal) .f32 0x00000000#32))

/-- The first 60 statements of the body are the hidden layer of the new features. -/
theorem k2_pay2_eq (x0 : Vec Ideal S4000x64 .f32) (x1 : Vec Ideal S4000x1 .f32) (x2 : Vec Ideal S4000x64 .f32)
    (x3 : Vec Ideal S64x64 .f32) (x4 : Vec Ideal S1x64 .f32) (x5 : Vec Ideal S64x64 .f32)
    (x6 : Vec Ideal S64x32 .f32) (x7 : Vec Ideal S1x32 .f32) :
    k2_pay2 (F := Ideal) x0 x1 x2 x3 x5 x4 x6 x7
      = maximumf
          (addf (matmul (F := Ideal) Dhid none (truncf (F := Ideal) .bf16 (newV x0 x1 x2 x3 x4 x5) bitsLt_bf16_f32) (truncf (F := Ideal) .bf16 x6 bitsLt_bf16_f32)
              (constant (F := Ideal) S4000x32 .f32 0x00000000#32))
            (broadcastTo S4000x32 (shapeCast S1x32 x7 shapeCasts_S1x32_S1x32) broadcasts_S1x32_S4000x32))
          (broadcast S4000x32 (Scalar.ofBits (F := Ideal) .f32 0x00000000#32)) := rfl

/-! ## Each stage at an entry -/

/-- The mean of the messages at (p, l). -/
theorem aggV_apply (x0 : Vec Ideal S4000x64 .f32) (x1 : Vec Ideal S4000x1 .f32) (p : Fin 4000) (l : Fin 64) :
    aggV x0 x1 (ix2 p l) = Gnn.aggRow (fun l' => x0 (ix2 p l')) (x1 (ix2 p (0 : Fin 1))) l := by
  unfold aggV Gnn.aggRow
  show Ideal.div (shapeCast S4000x64 x0 shapeCasts_S4000x64_S4000x64 (ix2 p l)) (broadcastTo S4000x64 _ broadcasts_S4000x1_S4000x64 (ix2 p l)) = _
  rw [shapeCast_self, RowCol.broadcastTo_a1_ab_apply, shapeCast_self]
  rfl

/-- A one-row array of 32 entries, cast to its own shape and broadcast over 4000 rows, reads its entry of the column. -/
theorem bias_row32 (x7 : Vec Ideal S1x32 .f32) (p : Fin 4000) (q : Fin 32) :
    broadcastTo S4000x32 (shapeCast S1x32 x7 shapeCasts_S1x32_S1x32) broadcasts_S1x32_S4000x32 (ix2 p q)
      = x7 (ix2 (0 : Fin 1) q) := by
  rw [shapeCast_self]
  exact broadcastTo_1b_ab_apply x7 _ p q

/-- A one-entry array, cast to its own shape and broadcast over 4000 rows, reads its entry. -/
theorem bias_row1 (x9 : Vec Ideal S1x1 .f32) (p : Fin 4000) (u : Fin 1) :
    broadcastTo S4000x1 (shapeCast S1x1 x9 shapeCasts_S1x1_S1x1) broadcasts_S1x1_S4000x1 (ix2 p u)
      = x9 (ix2 (0 : Fin 1) (0 : Fin 1)) := by
  rw [shapeCast_self]
  have hu : u = 0 := Subsingleton.elim _ _
  subst hu
  exact broadcastTo_1b_ab_apply x9 _ p 0

/-- The new location features at (p, q). -/
theorem newV_apply (x0 : Vec Ideal S4000x64 .f32) (x1 : Vec Ideal S4000x1 .f32) (x2 : Vec Ideal S4000x64 .f32)
    (x3 : Vec Ideal S64x64 .f32) (x4 : Vec Ideal S1x64 .f32) (x5 : Vec Ideal S64x64 .f32) (p : Fin 4000) (q : Fin 64) :
    newV x0 x1 x2 x3 x4 x5 (ix2 p q)
      = Gnn.newRow (fun l => x0 (ix2 p l)) (x1 (ix2 p (0 : Fin 1))) (fun l => x2 (ix2 p l)) x3
          (fun q' => x4 (ix2 (0 : Fin 1) q')) x5 q := by
  have m1 : matmul (F := Ideal) Dsq none (truncf (F := Ideal) .bf16 (aggV x0 x1) bitsLt_bf16_f32) (truncf (F := Ideal) .bf16 x3 bitsLt_bf16_f32)
        (constant (F := Ideal) S4000x64 .f32 0x00000000#32) (ix2 p q)
      = Gnn.dotRow (Gnn.aggRow (fun l => x0 (ix2 p l)) (x1 (ix2 p (0 : Fin 1)))) x3 q :=
    (MatProd.matmul_zero_entry Dsq none rfl rfl sq_l0 sq_l1 sq_r0 sq_r1 _ _ p q).trans
      (Finset.sum_congr rfl fun l _ => congrArg (· * x3 (ix2 l q)) (aggV_apply x0 x1 p l))
  have m2 : matmul (F := Ideal) Dsq none (truncf (F := Ideal) .bf16 (shapeCast S4000x64 x2 shapeCasts_S4000x64_S4000x64) bitsLt_bf16_f32)
        (truncf (F := Ideal) .bf16 x5 bitsLt_bf16_f32) (constant (F := Ideal) S4000x64 .f32 0x00000000#32) (ix2 p q)
      = Gnn.dotRow (fun l => x2 (ix2 p l)) x5 q := by
    rw [shapeCast_self]
    exact MatProd.matmul_zero_entry Dsq none rfl rfl sq_l0 sq_l1 sq_r0 sq_r1 _ _ p q
  unfold newV
  exact congrArg₂ max (congrArg₂ (· + ·) (congrArg₂ (· + ·) m1 (bias_row64 x4 p q)) m2) rfl

/-- The hidden features at (p, q). -/
theorem hid_apply (x0 : Vec Ideal S4000x64 .f32) (x1 : Vec Ideal S4000x1 .f32) (x2 : Vec Ideal S4000x64 .f32)
    (x3 : Vec Ideal S64x64 .f32) (x4 : Vec Ideal S1x64 .f32) (x5 : Vec Ideal S64x64 .f32)
    (x6 : Vec Ideal S64x32 .f32) (x7 : Vec Ideal S1x32 .f32) (p : Fin 4000) (q : Fin 32) :
    k2_pay2 (F := Ideal) x0 x1 x2 x3 x5 x4 x6 x7 (ix2 p q)
      = Gnn.hidRow (fun l => x0 (ix2 p l)) (x1 (ix2 p (0 : Fin 1))) (fun l => x2 (ix2 p l)) x3
          (fun q' => x4 (ix2 (0 : Fin 1) q')) x5 x6 (fun q' => x7 (ix2 (0 : Fin 1) q')) q := by
  have m1 : matmul (F := Ideal) Dhid none (truncf (F := Ideal) .bf16 (newV x0 x1 x2 x3 x4 x5) bitsLt_bf16_f32) (truncf (F := Ideal) .bf16 x6 bitsLt_bf16_f32)
        (constant (F := Ideal) S4000x32 .f32 0x00000000#32) (ix2 p q)
      = Gnn.dotRow (Gnn.newRow (fun l => x0 (ix2 p l)) (x1 (ix2 p (0 : Fin 1))) (fun l => x2 (ix2 p l)) x3
          (fun q' => x4 (ix2 (0 : Fin 1) q')) x5) x6 q :=
    (MatProd.matmul_zero_entry Dhid none rfl rfl hid_l0 hid_l1 hid_r0 hid_r1 _ _ p q).trans
      (Finset.sum_congr rfl fun l _ => congrArg (· * x6 (ix2 l q)) (newV_apply x0 x1 x2 x3 x4 x5 p l))
  rw [k2_pay2_eq]
  exact congrArg₂ max (congrArg₂ (· + ·) m1 (bias_row32 x7 p q)) rfl

/-- Entry p of the stored column. -/
theorem pay2 (x0 : Vec Ideal S4000x64 .f32) (x1 : Vec Ideal S4000x1 .f32) (x2 : Vec Ideal S4000x64 .f32)
    (x3 : Vec Ideal S64x64 .f32) (x4 : Vec Ideal S1x64 .f32) (x5 : Vec Ideal S64x64 .f32)
    (x6 : Vec Ideal S64x32 .f32) (x7 : Vec Ideal S1x32 .f32) (x8 : Vec Ideal S32x1 .f32) (x9 : Vec Ideal S1x1 .f32)
    (p : Fin 4000) (u : Fin 1) :
    k2_pay1 (F := Ideal) (k2_pay2 (F := Ideal) x0 x1 x2 x3 x5 x4 x6 x7) x8 x9 (ix2 p u)
      = Gnn.headRow (fun l => x0 (ix2 p l)) (x1 (ix2 p (0 : Fin 1))) (fun l => x2 (ix2 p l)) x3
          (fun q' => x4 (ix2 (0 : Fin 1) q')) x5 x6 (fun q' => x7 (ix2 (0 : Fin 1) q')) x8
          (x9 (ix2 (0 : Fin 1) (0 : Fin 1))) := by
  have hu : u = 0 := Subsingleton.elim _ _
  subst hu
  have m1 : matmul (F := Ideal) Dout none (truncf (F := Ideal) .bf16 (k2_pay2 (F := Ideal) x0 x1 x2 x3 x5 x4 x6 x7) bitsLt_bf16_f32)
        (truncf (F := Ideal) .bf16 x8 bitsLt_bf16_f32) (constant (F := Ideal) S4000x1 .f32 0x00000000#32) (ix2 p (0 : Fin 1))
      = Gnn.dotRow (Gnn.hidRow (fun l => x0 (ix2 p l)) (x1 (ix2 p (0 : Fin 1))) (fun l => x2 (ix2 p l)) x3
          (fun q' => x4 (ix2 (0 : Fin 1) q')) x5 x6 (fun q' => x7 (ix2 (0 : Fin 1) q'))) x8 (0 : Fin 1) :=
    (MatProd.matmul_zero_entry Dout none rfl rfl out_l0 out_l1 out_r0 out_r1 _ _ p (0 : Fin 1)).trans
      (Finset.sum_congr rfl fun l _ => congrArg (· * x8 (ix2 l (0 : Fin 1))) (hid_apply x0 x1 x2 x3 x4 x5 x6 x7 p l))
  unfold k2_pay1
  exact congrArg₂ (· + ·) m1 (bias_row1 x9 p 0)

end Cert.KernelIdeal.Bridge

end
-- ==== Proof.Region2.lean ====
/-
  The combine-and-head launch's result array as one function of the arrays the launch finds.

  The launch walks 25 grid points; point t stages rows 4000 t … 4000 t + 3999 of the summed messages, of the one-column
  counts and of the location features, and the seven weight and bias arrays whole, and writes back rows
  4000 t … 4000 t + 3999 of the one-column result.  Entry p of what it stores depends on row p of the three row blocks
  only, which is row 4000 t + p of the three arrays, so what point t writes back is its block of the head applied to
  the whole arrays; the 25 blocks tile the 100000 rows.  The contents the launch finds are a parameter.
-/
import proofs.«113650_j43576738185766_2_alg».proof.Proof.Gen.KernelIdeal.Frame
import proofs.«113650_j43576738185766_2_alg».proof.Proof.Pay2
import Idealize.ShloMosaic.Lib.Pipeline.Value

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the three row-blocked inputs and the result move down one block of rows per
    point, the weights and biases stay. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = t.val ∧ win2_10.index t (1 : Fin 2) = 0 :=
  (by decide +kernel : ∀ t : Fin grid2.N, _)

/-- Entry `j` of what a point stores, from row blocks that are rows `base + p` of the arrays `MS`, `CN`, `LH` and from
    the whole weight and bias arrays: the head of the whole arrays at the array index `i` under `j`. -/
theorem head_block (MS : S100000x64.Idx → EReal) (CN : S100000x1.Idx → EReal) (LH : S100000x64.Idx → EReal)
    (Wl : S64x64.Idx → EReal) (bl2 : S1x64.Idx → EReal) (Wr : S64x64.Idx → EReal) (Wh1 : S64x32.Idx → EReal)
    (bh1 : S1x32.Idx → EReal) (Wh2 : S32x1.Idx → EReal) (bh2 : S1x1.Idx → EReal)
    (x0 : Vec Ideal S4000x64 .f32) (x1 : Vec Ideal S4000x1 .f32) (x2 : Vec Ideal S4000x64 .f32)
    (x3 : Vec Ideal S64x64 .f32) (x4 : Vec Ideal S1x64 .f32) (x5 : Vec Ideal S64x64 .f32)
    (x6 : Vec Ideal S64x32 .f32) (x7 : Vec Ideal S1x32 .f32) (x8 : Vec Ideal S32x1 .f32) (x9 : Vec Ideal S1x1 .f32) (base : ℕ)
    (h0 : ∀ (y : S4000x64.Idx) (k : S100000x64.Idx), (k 0).val = base + (y 0).val → (k 1).val = (y 1).val → x0 y = MS k)
    (h1 : ∀ (y : S4000x1.Idx) (k : S100000x1.Idx), (k 0).val = base + (y 0).val → (k 1).val = (y 1).val → x1 y = CN k)
    (h2 : ∀ (y : S4000x64.Idx) (k : S100000x64.Idx), (k 0).val = base + (y 0).val → (k 1).val = (y 1).val → x2 y = LH k)
    (h3 : x3 = Wl) (h4 : x4 = bl2) (h5 : x5 = Wr) (h6 : x6 = Wh1) (h7 : x7 = bh1) (h8 : x8 = Wh2) (h9 : x9 = bh2)
    (j : S4000x1.Idx) (i : S100000x1.Idx) (hi0 : (i 0).val = base + (j 0).val) :
    k2_pay1 (F := Ideal) (k2_pay2 (F := Ideal) x0 x1 x2 x3 x5 x4 x6 x7) x8 x9 j
      = Gnn.headArr MS CN LH Wl bl2 Wr Wh1 bh1 Wh2 bh2 i := by
  subst h3 h4 h5 h6 h7 h8 h9
  obtain ⟨p, u, rfl⟩ : ∃ (p : Fin 4000) (u : Fin 1), j = ix2 p u := ⟨j 0, j 1, eq_ix2 j⟩
  obtain ⟨P, U, rfl⟩ : ∃ (P : Fin 100000) (U : Fin 1), i = ix2 P U := ⟨i 0, i 1, eq_ix2 i⟩
  have r0 : (fun l => x0 (ix2 p l)) = (fun l => MS (ix2 P l)) := funext fun l => h0 (ix2 p l) (ix2 P l) hi0 rfl
  have r1 : x1 (ix2 p (0 : Fin 1)) = CN (ix2 P (0 : Fin 1)) := h1 (ix2 p (0 : Fin 1)) (ix2 P (0 : Fin 1)) hi0 rfl
  have r2 : (fun l => x2 (ix2 p l)) = (fun l => LH (ix2 P l)) := funext fun l => h2 (ix2 p l) (ix2 P l) hi0 rfl
  rw [pay2, r0, r1, r2]
  rfl

/-- An index of the result array is in point `t`'s block iff each coordinate is in the block's range on its axis. -/
theorem mem_blk2 (t : Fin cfg2.N) (i : S100000x1.Idx) :
    i ∈ ((cfg2.win 10).blk t).view.set ↔ ∀ a : Fin 2, win2_10.index t a * S4000x1.size a ≤ (i a).val ∧ (i a).val < win2_10.index t a * S4000x1.size a + S4000x1.size a := by
  show i ∈ ((View.whole main_v26).slice (win2_10.rect t)).set ↔ _
  rw [View.set_slice_whole, Rect.mem_set_unit]
  exact Iff.rfl

set_option maxHeartbeats 2000000 in
/-- What point `t` writes back is its block of the head of the arrays the launch finds. -/
theorem flushed2 (c : Dev nD) (t : Fin cfg2.N) :
    (dat2 V c).flushed 10 t = ((cfg2.win 10).blk t).view.read (Elt Ideal)
      (Gnn.headArr (V c main_v17 : S100000x64.Idx → EReal) (V c main_v22 : S100000x1.Idx → EReal) (V c main_v1 : S100000x64.Idx → EReal) (V c main_arg7 : S64x64.Idx → EReal) (V c main_v23 : S1x64.Idx → EReal) (V c main_arg9 : S64x64.Idx → EReal) (V c main_arg10 : S64x32.Idx → EReal) (V c main_v24 : S1x32.Idx → EReal) (V c main_arg12 : S32x1.Idx → EReal) (V c main_v25 : S1x1.Idx → EReal)) := by
  show (cfg2.win 10).cut (grid2.coords t) ((dat2 V c).after 10 t) = _
  rw [after2_10]
  unfold out2_10
  rw [View.canon_unit_zero hz2]
  simp only [View.ld_unit_zero (S := S4000x64) hz2, View.ld_unit_zero (S := S4000x1) hz2, View.ld_unit_zero (S := S64x64) hz2,
    View.ld_unit_zero (S := S1x64) hz2, View.ld_unit_zero (S := S64x32) hz2, View.ld_unit_zero (S := S1x32) hz2,
    View.ld_unit_zero (S := S32x1) hz2, View.ld_unit_zero (S := S1x1) hz2]
  obtain ⟨e0, e1, e2, e3, e4, e5, e6, e7, e8, e9, e10, e11, e12, e13, e14, e15, e16, e17, e18, e19, e20, e21⟩ := idx2 t
  have hW3 : (iblk2 V c 3 t : Vec Ideal S64x64 .f32) = (V c main_arg7 : S64x64.Idx → EReal) := by
    funext y
    unfold iblk2
    rw [View.read_apply]
    show (V c main_arg7 : S64x64.Idx → EReal) (((cfg2.win 3).blk t).view.emb y) = (V c main_arg7 : S64x64.Idx → EReal) y
    refine congrArg _ (funext fun a => Fin.ext ?_)
    match a with
    | ⟨0, _⟩ => show win2_3.index t (0 : Fin 2) * 64 + 1 * (y 0).val = (y 0).val; rw [e6]; omega
    | ⟨1, _⟩ => show win2_3.index t (1 : Fin 2) * 64 + 1 * (y 1).val = (y 1).val; rw [e7]; omega
  have hW4 : (iblk2 V c 4 t : Vec Ideal S1x64 .f32) = (V c main_v23 : S1x64.Idx → EReal) := by
    funext y
    unfold iblk2
    rw [View.read_apply]
    show (V c main_v23 : S1x64.Idx → EReal) (((cfg2.win 4).blk t).view.emb y) = (V c main_v23 : S1x64.Idx → EReal) y
    refine congrArg _ (funext fun a => Fin.ext ?_)
    match a with
    | ⟨0, _⟩ => show win2_4.index t (0 : Fin 2) * 1 + 1 * (y 0).val = (y 0).val; rw [e8]; omega
    | ⟨1, _⟩ => show win2_4.index t (1 : Fin 2) * 64 + 1 * (y 1).val = (y 1).val; rw [e9]; omega
  have hW5 : (iblk2 V c 5 t : Vec Ideal S64x64 .f32) = (V c main_arg9 : S64x64.Idx → EReal) := by
    funext y
    unfold iblk2
    rw [View.read_apply]
    show (V c main_arg9 : S64x64.Idx → EReal) (((cfg2.win 5).blk t).view.emb y) = (V c main_arg9 : S64x64.Idx → EReal) y
    refine congrArg _ (funext fun a => Fin.ext ?_)
    match a with
    | ⟨0, _⟩ => show win2_5.index t (0 : Fin 2) * 64 + 1 * (y 0).val = (y 0).val; rw [e10]; omega
    | ⟨1, _⟩ => show win2_5.index t (1 : Fin 2) * 64 + 1 * (y 1).val = (y 1).val; rw [e11]; omega
  have hW6 : (iblk2 V c 6 t : Vec Ideal S64x32 .f32) = (V c main_arg10 : S64x32.Idx → EReal) := by
    funext y
    unfold iblk2
    rw [View.read_apply]
    show (V c main_arg10 : S64x32.Idx → EReal) (((cfg2.win 6).blk t).view.emb y) = (V c main_arg10 : S64x32.Idx → EReal) y
    refine congrArg _ (funext fun a => Fin.ext ?_)
    match a with
    | ⟨0, _⟩ => show win2_6.index t (0 : Fin 2) * 64 + 1 * (y 0).val = (y 0).val; rw [e12]; omega
    | ⟨1, _⟩ => show win2_6.index t (1 : Fin 2) * 32 + 1 * (y 1).val = (y 1).val; rw [e13]; omega
  have hW7 : (iblk2 V c 7 t : Vec Ideal S1x32 .f32) = (V c main_v24 : S1x32.Idx → EReal) := by
    funext y
    unfold iblk2
    rw [View.read_apply]
    show (V c main_v24 : S1x32.Idx → EReal) (((cfg2.win 7).blk t).view.emb y) = (V c main_v24 : S1x32.Idx → EReal) y
    refine congrArg _ (funext fun a => Fin.ext ?_)
    match a with
    | ⟨0, _⟩ => show win2_7.index t (0 : Fin 2) * 1 + 1 * (y 0).val = (y 0).val; rw [e14]; omega
    | ⟨1, _⟩ => show win2_7.index t (1 : Fin 2) * 32 + 1 * (y 1).val = (y 1).val; rw [e15]; omega
  have hW8 : (iblk2 V c 8 t : Vec Ideal S32x1 .f32) = (V c main_arg12 : S32x1.Idx → EReal) := by
    funext y
    unfold iblk2
    rw [View.read_apply]
    show (V c main_arg12 : S32x1.Idx → EReal) (((cfg2.win 8).blk t).view.emb y) = (V c main_arg12 : S32x1.Idx → EReal) y
    refine congrArg _ (funext fun a => Fin.ext ?_)
    match a with
    | ⟨0, _⟩ => show win2_8.index t (0 : Fin 2) * 32 + 1 * (y 0).val = (y 0).val; rw [e16]; omega
    | ⟨1, _⟩ => show win2_8.index t (1 : Fin 2) * 1 + 1 * (y 1).val = (y 1).val; rw [e17]; omega
  have hW9 : (iblk2 V c 9 t : Vec Ideal S1x1 .f32) = (V c main_v25 : S1x1.Idx → EReal) := by
    funext y
    unfold iblk2
    rw [View.read_apply]
    show (V c main_v25 : S1x1.Idx → EReal) (((cfg2.win 9).blk t).view.emb y) = (V c main_v25 : S1x1.Idx → EReal) y
    refine congrArg _ (funext fun a => Fin.ext ?_)
    match a with
    | ⟨0, _⟩ => show win2_9.index t (0 : Fin 2) * 1 + 1 * (y 0).val = (y 0).val; rw [e18]; omega
    | ⟨1, _⟩ => show win2_9.index t (1 : Fin 2) * 1 + 1 * (y 1).val = (y 1).val; rw [e19]; omega
  have hX0 : ∀ (y : S4000x64.Idx) (k : S100000x64.Idx), (k 0).val = t.val * 4000 + (y 0).val → (k 1).val = (y 1).val →
      (iblk2 V c 0 t : Vec Ideal S4000x64 .f32) y = (V c main_v17 : S100000x64.Idx → EReal) k := by
    intro y k hk0 hk1
    unfold iblk2
    rw [View.read_apply]
    show (V c main_v17 : S100000x64.Idx → EReal) (((cfg2.win 0).blk t).view.emb y) = (V c main_v17 : S100000x64.Idx → EReal) k
    refine congrArg _ (funext fun a => Fin.ext ?_)
    match a with
    | ⟨0, _⟩ => show win2_0.index t (0 : Fin 2) * 4000 + 1 * (y 0).val = (k 0).val; rw [e0, hk0]; omega
    | ⟨1, _⟩ => show win2_0.index t (1 : Fin 2) * 64 + 1 * (y 1).val = (k 1).val; rw [e1, hk1]; omega
  have hX1 : ∀ (y : S4000x1.Idx) (k : S100000x1.Idx), (k 0).val = t.val * 4000 + (y 0).val → (k 1).val = (y 1).val →
      (iblk2 V c 1 t : Vec Ideal S4000x1 .f32) y = (V c main_v22 : S100000x1.Idx → EReal) k := by
    intro y k hk0 hk1
    unfold iblk2
    rw [View.read_apply]
    show (V c main_v22 : S100000x1.Idx → EReal) (((cfg2.win 1).blk t).view.emb y) = (V c main_v22 : S100000x1.Idx → EReal) k
    refine congrArg _ (funext fun a => Fin.ext ?_)
    match a with
    | ⟨0, _⟩ => show win2_1.index t (0 : Fin 2) * 4000 + 1 * (y 0).val = (k 0).val; rw [e2, hk0]; omega
    | ⟨1, _⟩ => show win2_1.index t (1 : Fin 2) * 1 + 1 * (y 1).val = (k 1).val; rw [e3, hk1]; omega
  have hX2 : ∀ (y : S4000x64.Idx) (k : S100000x64.Idx), (k 0).val = t.val * 4000 + (y 0).val → (k 1).val = (y 1).val →
      (iblk2 V c 2 t : Vec Ideal S4000x64 .f32) y = (V c main_v1 : S100000x64.Idx → EReal) k := by
    intro y k hk0 hk1
    unfold iblk2
    rw [View.read_apply]
    show (V c main_v1 : S100000x64.Idx → EReal) (((cfg2.win 2).blk t).view.emb y) = (V c main_v1 : S100000x64.Idx → EReal) k
    refine congrArg _ (funext fun a => Fin.ext ?_)
    match a with
    | ⟨0, _⟩ => show win2_2.index t (0 : Fin 2) * 4000 + 1 * (y 0).val = (k 0).val; rw [e4, hk0]; omega
    | ⟨1, _⟩ => show win2_2.index t (1 : Fin 2) * 64 + 1 * (y 1).val = (k 1).val; rw [e5, hk1]; omega
  funext j
  show k2_pay1 (F := Ideal) (k2_pay2 (F := Ideal) (iblk2 V c 0 t) (iblk2 V c 1 t) (iblk2 V c 2 t) (iblk2 V c 3 t) (iblk2 V c 5 t)
        (iblk2 V c 4 t) (iblk2 V c 6 t) (iblk2 V c 7 t)) (iblk2 V c 8 t) (iblk2 V c 9 t) j
    = Gnn.headArr (V c main_v17 : S100000x64.Idx → EReal) (V c main_v22 : S100000x1.Idx → EReal) (V c main_v1 : S100000x64.Idx → EReal) (V c main_arg7 : S64x64.Idx → EReal) (V c main_v23 : S1x64.Idx → EReal) (V c main_arg9 : S64x64.Idx → EReal) (V c main_arg10 : S64x32.Idx → EReal) (V c main_v24 : S1x32.Idx → EReal) (V c main_arg12 : S32x1.Idx → EReal) (V c main_v25 : S1x1.Idx → EReal)
        (((cfg2.win 10).blk t).view.emb j)
  refine head_block (V c main_v17) (V c main_v22) (V c main_v1) (V c main_arg7) (V c main_v23) (V c main_arg9) (V c main_arg10)
    (V c main_v24) (V c main_arg12) (V c main_v25)
    (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (t.val * 4000) hX0 hX1 hX2 hW3 hW4 hW5 hW6 hW7 hW8 hW9 j _ ?_
  show win2_10.index t (0 : Fin 2) * 4000 + 1 * (j 0).val = t.val * 4000 + (j 0).val
  rw [e20]; omega

/-- Every index of the result array is in the block of the point its row falls in. -/
theorem cover2 (i : S100000x1.Idx) : ∃ t : Fin cfg2.N, (cfg2.win 10).flush t = true ∧ i ∈ ((cfg2.win 10).blk t).view.set := by
  have hi0 : (i 0).val < 100000 := (i 0).isLt
  have hi1 : (i 1).val < 1 := (i 1).isLt
  have hN : cfg2.N = 25 := N_2
  have ht : (i 0).val / 4000 < cfg2.N := by rw [hN]; omega
  refine ⟨⟨(i 0).val / 4000, ht⟩, flush2_10 _, ?_⟩
  rw [mem_blk2]
  obtain ⟨e0, e1, e2, e3, e4, e5, e6, e7, e8, e9, e10, e11, e12, e13, e14, e15, e16, e17, e18, e19, e20, e21⟩ := idx2 ⟨(i 0).val / 4000, ht⟩
  intro a
  match a with
  | ⟨0, _⟩ =>
    show win2_10.index ⟨(i 0).val / 4000, ht⟩ (0 : Fin 2) * 4000 ≤ (i 0).val ∧ (i 0).val < win2_10.index ⟨(i 0).val / 4000, ht⟩ (0 : Fin 2) * 4000 + 4000
    rw [e20]
    show (i 0).val / 4000 * 4000 ≤ (i 0).val ∧ (i 0).val < (i 0).val / 4000 * 4000 + 4000
    omega
  | ⟨1, _⟩ =>
    show win2_10.index ⟨(i 0).val / 4000, ht⟩ (1 : Fin 2) * 1 ≤ (i 1).val ∧ (i 1).val < win2_10.index ⟨(i 0).val / 4000, ht⟩ (1 : Fin 2) * 1 + 1
    rw [e21]
    omega

/-- The result array after the launch: the head of the arrays the launch finds. -/
theorem final2 (c : Dev nD) : (dat2 V c).arrAt 10 cfg2.N
    = Gnn.headArr (V c main_v17 : S100000x64.Idx → EReal) (V c main_v22 : S100000x1.Idx → EReal) (V c main_v1 : S100000x64.Idx → EReal) (V c main_arg7 : S64x64.Idx → EReal) (V c main_v23 : S1x64.Idx → EReal) (V c main_arg9 : S64x64.Idx → EReal) (V c main_arg10 : S64x32.Idx → EReal) (V c main_v24 : S1x32.Idx → EReal) (V c main_arg12 : S32x1.Idx → EReal) (V c main_v25 : S1x1.Idx → EReal) :=
  (dat2 V c).arrAt_eq_of_cover 10 _ (fun t _ => flushed2 V c t) cover2

end Cert.KernelIdeal.Bridge

end
-- ==== Proof.Fold.lean ====
/-
  The buffer contents at the boundaries between the program's segments, in closed form.

  The first launch finds the location features, the location weights and the location bias reshaped to one row, and
  leaves the dense layer of these; the second does the same for the events.  The third stretch of host operations
  gathers the event rows the edges name, adds them up per destination, counts the edges per destination, and reshapes
  three biases; the third launch finds these beside the first launch's result and the head's weights and leaves the
  head of them; the last operation drops the unit axis.  A buffer no operation and no launch writes keeps its launch
  contents through every boundary.
-/
import proofs.«113650_j43576738185766_2_alg».proof.Proof.Gen.KernelIdeal.Frame
import proofs.«113650_j43576738185766_2_alg».proof.Proof.Region0
import proofs.«113650_j43576738185766_2_alg».proof.Proof.Region1
import proofs.«113650_j43576738185766_2_alg».proof.Proof.Region2
import Idealize.ShloMosaic.Lib.StableHlo.Run

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-! ## What the first launch finds and leaves -/

theorem V1_arg0 (c : Dev nD) : V1 m ρ c main_arg0 = m ((c : Thread nD τ).loc main_arg0) := by
  dsimp only [V1, W1, hostOps0]
  after_results
theorem V1_arg3 (c : Dev nD) : V1 m ρ c main_arg3 = m ((c : Thread nD τ).loc main_arg3) := by
  dsimp only [V1, W1, hostOps0]
  after_results
theorem V1_v0 (c : Dev nD) : V1 m ρ c main_v0 = shapeCast S1x64 (m ((c : Thread nD τ).loc main_arg4) : S64.Idx → EReal) shapeCasts_S64_S1x64 := by
  dsimp only [V1, W1, hostOps0]
  after_results
  rfl

/-- The location features after the first launch. -/
def locH (c : Dev nD) : S100000x64.Idx → EReal :=
  Gnn.denseArr (m ((c : Thread nD τ).loc main_arg0) : S100000x128.Idx → EReal) (m ((c : Thread nD τ).loc main_arg3) : S128x64.Idx → EReal)
    (shapeCast S1x64 (m ((c : Thread nD τ).loc main_arg4) : S64.Idx → EReal) shapeCasts_S64_S1x64)

theorem W2_v1 (c : Dev nD) : W2 m ρ c (Proc.devRef .tc main_v1) = locH m c := by
  refine (W2_arr m ρ c 3).trans ?_
  rw [final0 (V1 m ρ) c, V1_arg0, V1_arg3, V1_v0]
  rfl

/-! ## What the second launch finds and leaves -/

theorem V3_arg1 (c : Dev nD) : V3 m ρ c main_arg1 = m ((c : Thread nD τ).loc main_arg1) := by
  dsimp only [V3, W3, hostOps1]
  after_results
  rw [W2_of_ne m ρ c main_arg1 (by decide)]
  dsimp only [V1, W1, hostOps0]
  after_results
theorem V3_arg5 (c : Dev nD) : V3 m ρ c main_arg5 = m ((c : Thread nD τ).loc main_arg5) := by
  dsimp only [V3, W3, hostOps1]
  after_results
  rw [W2_of_ne m ρ c main_arg5 (by decide)]
  dsimp only [V1, W1, hostOps0]
  after_results
theorem V3_v2 (c : Dev nD) : V3 m ρ c main_v2 = shapeCast S1x64 (m ((c : Thread nD τ).loc main_arg6) : S64.Idx → EReal) shapeCasts_S64_S1x64 := by
  dsimp only [V3, W3, hostOps1]
  after_results
  rw [W2_of_ne m ρ c main_arg6 (by decide)]
  dsimp only [W1, hostOps0]
  after_results
  rfl

/-- The event features after the second launch. -/
def evtH (c : Dev nD) : S200000x64.Idx → EReal :=
  Gnn.denseArr (m ((c : Thread nD τ).loc main_arg1) : S200000x128.Idx → EReal) (m ((c : Thread nD τ).loc main_arg5) : S128x64.Idx → EReal)
    (shapeCast S1x64 (m ((c : Thread nD τ).loc main_arg6) : S64.Idx → EReal) shapeCasts_S64_S1x64)

theorem W4_v3 (c : Dev nD) : W4 m ρ c (Proc.devRef .tc main_v3) = evtH m c := by
  refine (W4_arr m ρ c 3).trans ?_
  rw [final1 (V3 m ρ) c, V3_arg1, V3_arg5, V3_v2]
  rfl

/-! ## What the third launch finds -/

theorem W4_arg2 (c : Dev nD) : W4 m ρ c (Proc.devRef .tc main_arg2) = m ((c : Thread nD τ).loc main_arg2) := by
  rw [W4_of_ne m ρ c main_arg2 (by decide)]
  dsimp only [W3, hostOps1]
  after_results
  rw [W2_of_ne m ρ c main_arg2 (by decide)]
  dsimp only [W1, hostOps0]
  after_results

/-- The edges' sources as gather indices: a negative entry wraps around the 200000 event rows. -/
def srcIdx (x2 : S2x1000000.Idx → BitVec 32) : S1000000x1.Idx → BitVec 32 :=
  broadcastInDim S1000000x1 ![0] bcast_S1000000_S1000000x1_0
    (select (cmpi .slt (shapeCast S1000000 (extractStridedSlice S1x1000000 ![0, 0] x2 slices_S2x1000000_S1x1000000_0_0) shapeCasts_S1x1000000_S1000000)
        (broadcastInDim S1000000 ![] bcast_S_S1000000 (constantI S_ 32 0#32)))
      (addi (shapeCast S1000000 (extractStridedSlice S1x1000000 ![0, 0] x2 slices_S2x1000000_S1x1000000_0_0) shapeCasts_S1x1000000_S1000000)
        (broadcastInDim S1000000 ![] bcast_S_S1000000 (constantI S_ 32 200000#32)))
      (shapeCast S1000000 (extractStridedSlice S1x1000000 ![0, 0] x2 slices_S2x1000000_S1x1000000_0_0) shapeCasts_S1x1000000_S1000000))

/-- The edges' destinations as scatter indices. -/
def dstIdx (x2 : S2x1000000.Idx → BitVec 32) : S1000000x1.Idx → BitVec 32 :=
  broadcastInDim S1000000x1 ![0] bcast_S1000000_S1000000x1_0
    (shapeCast S1000000 (extractStridedSlice S1x1000000 ![1, 0] x2 slices_S2x1000000_S1x1000000_1_0) shapeCasts_S1x1000000_S1000000)

/-- The messages summed per destination: the gathered event rows scattered by addition onto zeros. -/
def msgSum (e : S200000x64.Idx → EReal) (x2 : S2x1000000.Idx → BitVec 32) : S100000x64.Idx → EReal :=
  Host.scatterAdd (F := Ideal) scatter_S100000x64_S1000000x1_S1000000x64_1_0_0_1
    (broadcastInDim S100000x64 ![] bcast_S_S100000x64 (constant (F := Ideal) S_ .f32 0x00000000#32)) (dstIdx x2)
    (Host.gather gather_S200000x64_S1000000x1_S1000000x64_1_0_n_n_0_1_164 e (srcIdx x2))

/-- The number of edges per destination, as one column: ones scattered by addition onto zeros. -/
def cntCol (x2 : S2x1000000.Idx → BitVec 32) : S100000x1.Idx → EReal :=
  broadcastInDim S100000x1 ![0] bcast_S100000_S100000x1_0
    (Host.scatterAdd (F := Ideal) scatter_S100000_S1000000x1_S1000000_n_0_0_1
      (broadcastInDim S100000 ![] bcast_S_S100000 (constant (F := Ideal) S_ .f32 0x00000000#32)) (dstIdx x2)
      (broadcastInDim S1000000 ![] bcast_S_S1000000 (constant (F := Ideal) S_ .f32 0x3F800000#32)))

set_option maxHeartbeats 4000000 in
theorem V5_v17 (c : Dev nD) : V5 m ρ c main_v17 = msgSum (evtH m c) (m ((c : Thread nD τ).loc main_arg2) : S2x1000000.Idx → BitVec 32) := by
  rw [← W4_v3 m ρ c, ← W4_arg2 m ρ c]
  dsimp only [V5, W5, hostOps2]
  after_results_simp <;> rfl

set_option maxHeartbeats 4000000 in
theorem V5_v22 (c : Dev nD) : V5 m ρ c main_v22 = cntCol (m ((c : Thread nD τ).loc main_arg2) : S2x1000000.Idx → BitVec 32) := by
  rw [← W4_arg2 m ρ c]
  dsimp only [V5, W5, hostOps2]
  after_results_simp <;> rfl

theorem V5_v1 (c : Dev nD) : V5 m ρ c main_v1 = locH m c := by
  dsimp only [V5, W5, hostOps2]
  after_results_simp
  rw [W4_of_ne m ρ c main_v1 (by decide)]
  dsimp only [W3, hostOps1]
  after_results
  exact W2_v1 m ρ c

theorem V5_arg7 (c : Dev nD) : V5 m ρ c main_arg7 = m ((c : Thread nD τ).loc main_arg7) := by
  dsimp only [V5, W5, hostOps2]
  after_results_simp
  rw [W4_of_ne m ρ c main_arg7 (by decide)]
  dsimp only [V3, W3, hostOps1]
  after_results
  rw [W2_of_ne m ρ c main_arg7 (by decide)]
  dsimp only [V1, W1, hostOps0]
  after_results
theorem V5_arg9 (c : Dev nD) : V5 m ρ c main_arg9 = m ((c : Thread nD τ).loc main_arg9) := by
  dsimp only [V5, W5, hostOps2]
  after_results_simp
  rw [W4_of_ne m ρ c main_arg9 (by decide)]
  dsimp only [V3, W3, hostOps1]
  after_results
  rw [W2_of_ne m ρ c main_arg9 (by decide)]
  dsimp only [V1, W1, hostOps0]
  after_results
theorem V5_arg10 (c : Dev nD) : V5 m ρ c main_arg10 = m ((c : Thread nD τ).loc main_arg10) := by
  dsimp only [V5, W5, hostOps2]
  after_results_simp
  rw [W4_of_ne m ρ c main_arg10 (by decide)]
  dsimp only [V3, W3, hostOps1]
  after_results
  rw [W2_of_ne m ρ c main_arg10 (by decide)]
  dsimp only [V1, W1, hostOps0]
  after_results
theorem V5_arg12 (c : Dev nD) : V5 m ρ c main_arg12 = m ((c : Thread nD τ).loc main_arg12) := by
  dsimp only [V5, W5, hostOps2]
  after_results_simp
  rw [W4_of_ne m ρ c main_arg12 (by decide)]
  dsimp only [V3, W3, hostOps1]
  after_results
  rw [W2_of_ne m ρ c main_arg12 (by decide)]
  dsimp only [V1, W1, hostOps0]
  after_results

theorem W4_arg8 (c : Dev nD) : W4 m ρ c (Proc.devRef .tc main_arg8) = m ((c : Thread nD τ).loc main_arg8) := by
  rw [W4_of_ne m ρ c main_arg8 (by decide)]
  dsimp only [W3, hostOps1]
  after_results
  rw [W2_of_ne m ρ c main_arg8 (by decide)]
  dsimp only [W1, hostOps0]
  after_results
theorem W4_arg11 (c : Dev nD) : W4 m ρ c (Proc.devRef .tc main_arg11) = m ((c : Thread nD τ).loc main_arg11) := by
  rw [W4_of_ne m ρ c main_arg11 (by decide)]
  dsimp only [W3, hostOps1]
  after_results
  rw [W2_of_ne m ρ c main_arg11 (by decide)]
  dsimp only [W1, hostOps0]
  after_results
theorem W4_arg13 (c : Dev nD) : W4 m ρ c (Proc.devRef .tc main_arg13) = m ((c : Thread nD τ).loc main_arg13) := by
  rw [W4_of_ne m ρ c main_arg13 (by decide)]
  dsimp only [W3, hostOps1]
  after_results
  rw [W2_of_ne m ρ c main_arg13 (by decide)]
  dsimp only [W1, hostOps0]
  after_results

theorem V5_v23 (c : Dev nD) : V5 m ρ c main_v23 = shapeCast S1x64 (m ((c : Thread nD τ).loc main_arg8) : S64.Idx → EReal) shapeCasts_S64_S1x64 := by
  dsimp only [V5, W5, hostOps2]
  after_results_simp
  rw [W4_arg8 m ρ c]
  rfl
theorem V5_v24 (c : Dev nD) : V5 m ρ c main_v24 = shapeCast S1x32 (m ((c : Thread nD τ).loc main_arg11) : S32.Idx → EReal) shapeCasts_S32_S1x32 := by
  dsimp only [V5, W5, hostOps2]
  after_results_simp
  rw [W4_arg11 m ρ c]
  rfl
theorem V5_v25 (c : Dev nD) : V5 m ρ c main_v25 = shapeCast S1x1 (m ((c : Thread nD τ).loc main_arg13) : S1.Idx → EReal) shapeCasts_S1_S1x1 := by
  dsimp only [V5, W5, hostOps2]
  after_results_simp
  rw [W4_arg13 m ρ c]
  rfl

/-! ## What the third launch leaves, and the result -/

/-- The result as a one-column array: the head of the summed messages, the counts and the location features. -/
def outCol (c : Dev nD) : S100000x1.Idx → EReal :=
  Gnn.headArr (msgSum (evtH m c) (m ((c : Thread nD τ).loc main_arg2) : S2x1000000.Idx → BitVec 32))
    (cntCol (m ((c : Thread nD τ).loc main_arg2) : S2x1000000.Idx → BitVec 32)) (locH m c)
    (m ((c : Thread nD τ).loc main_arg7) : S64x64.Idx → EReal)
    (shapeCast S1x64 (m ((c : Thread nD τ).loc main_arg8) : S64.Idx → EReal) shapeCasts_S64_S1x64)
    (m ((c : Thread nD τ).loc main_arg9) : S64x64.Idx → EReal) (m ((c : Thread nD τ).loc main_arg10) : S64x32.Idx → EReal)
    (shapeCast S1x32 (m ((c : Thread nD τ).loc main_arg11) : S32.Idx → EReal) shapeCasts_S32_S1x32)
    (m ((c : Thread nD τ).loc main_arg12) : S32x1.Idx → EReal)
    (shapeCast S1x1 (m ((c : Thread nD τ).loc main_arg13) : S1.Idx → EReal) shapeCasts_S1_S1x1)

theorem W6_v26 (c : Dev nD) : W6 m ρ c (Proc.devRef .tc main_v26) = outCol m c := by
  refine (W6_arr m ρ c 10).trans ?_
  rw [final2 (V5 m ρ) c, V5_v17, V5_v22, V5_v1, V5_arg7, V5_v23, V5_arg9, V5_arg10, V5_v24, V5_arg12, V5_v25]
  rfl

/-- The result buffer at the last boundary: the one-column result with its unit axis dropped. -/
theorem W7_v27 (c : Dev nD) : W7 m ρ c (Proc.devRef .tc main_v27) = shapeCast S100000 (outCol m c) shapeCasts_S100000x1_S100000 := by
  dsimp only [W7, hostOps3]
  after_results
  rw [W6_v26]
  rfl

end Cert.KernelIdeal.Bridge

end
-- ==== Proof.RefSpec.lean ====
/-
  The reference program's stages, entry by entry, as the row functions of the specification.

  Each dense stage of the reference (a whole-array product, a bias broadcast along the rows, a rectifier) is read at an
  entry (P, q): the product as the sum over the contracted axis, the two broadcasts of the bias as the bias at q, the
  rectifier against the zero word.  The division by the broadcast `max count 1` is read at (P, l) as the quotient by the
  count of row P.  Chained, the result at row P is the head's row function of row P of the summed messages, the count of
  row P and row P of the location features; the gather and the two scatter-additions are never opened.
-/
import proofs.«113650_j43576738185766_2_alg».proof.Proof.Gen.ReferenceIdeal.Read
import proofs.«113650_j43576738185766_2_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The location features of the reference at (P, q). -/
theorem dense0 (x0 : S100000x128.Idx → EReal) (x3 : S128x64.Idx → EReal) (x4 : S64.Idx → EReal) (P : Fin 100000) (q : Fin 64) :
    val_main_v4 (F := Ideal) x0 x3 x4 (ix2 P q) = Gnn.denseRow (fun l => x0 (ix2 P l)) x3 (fun q' => x4 (ix1 q')) q := by
  have il : ∀ k : Fin 128, lidx_main_v0 (ix2 P q) k = ix2 P k := fun k => funext fun a => Fin.ext (by match a with | ⟨0, _⟩ => rfl | ⟨1, _⟩ => rfl)
  have ir : ∀ k : Fin 128, ridx_main_v0 (ix2 P q) k = ix2 k q := fun k => funext fun a => Fin.ext (by match a with | ⟨0, _⟩ => rfl | ⟨1, _⟩ => rfl)
  have ib : idx_main_v1 (idx_main_v2 (ix2 P q)) = ix1 q := funext fun a => Fin.ext (by match a with | ⟨0, _⟩ => rfl)
  rw [val_main_v4_apply, val_main_v3_apply, val_main_v0_apply, val_main_v2_apply, val_main_v1_apply,
    val_main_call0_v0_apply, val_main_call0_cst_apply]
  simp only [il, ir, ib]
  rfl

/-- The event features of the reference at (P, q). -/
theorem dense1 (x1 : S200000x128.Idx → EReal) (x5 : S128x64.Idx → EReal) (x6 : S64.Idx → EReal) (P : Fin 200000) (q : Fin 64) :
    val_main_v9 (F := Ideal) x1 x5 x6 (ix2 P q) = Gnn.denseRow (fun l => x1 (ix2 P l)) x5 (fun q' => x6 (ix1 q')) q := by
  have il : ∀ k : Fin 128, lidx_main_v5 (ix2 P q) k = ix2 P k := fun k => funext fun a => Fin.ext (by match a with | ⟨0, _⟩ => rfl | ⟨1, _⟩ => rfl)
  have ir : ∀ k : Fin 128, ridx_main_v5 (ix2 P q) k = ix2 k q := fun k => funext fun a => Fin.ext (by match a with | ⟨0, _⟩ => rfl | ⟨1, _⟩ => rfl)
  have ib : idx_main_v6 (idx_main_v7 (ix2 P q)) = ix1 q := funext fun a => Fin.ext (by match a with | ⟨0, _⟩ => rfl)
  rw [val_main_v9_apply, val_main_v8_apply, val_main_v5_apply, val_main_v7_apply, val_main_v6_apply,
    val_main_call1_v0_apply, val_main_call1_cst_apply]
  simp only [il, ir, ib]
  rfl

/-- The mean of the messages at (P, l): the summed messages of row P over `max` of the row's count and one. -/
theorem agg (x1 : S200000x128.Idx → EReal) (x2 : S2x1000000.Idx → BitVec 32) (x5 : S128x64.Idx → EReal) (x6 : S64.Idx → EReal) (P : Fin 100000) (l : Fin 64) :
    val_main_v32 (F := Ideal) x1 x2 x5 x6 (ix2 P l)
      = Gnn.aggRow (fun l' => val_main_v23 (F := Ideal) x1 x2 x5 x6 (ix2 P l')) (val_main_v27 (F := Ideal) x2 (ix1 P)) l := by
  have ic : idx_main_v30 (idx_main_v31 (ix2 P l)) = ix1 P := funext fun a => Fin.ext (by match a with | ⟨0, _⟩ => rfl)
  rw [val_main_v32_apply, val_main_v31_apply, val_main_v30_apply, val_main_v29_apply, val_main_v28_apply,
    val_main_cst_3_apply]
  simp only [ic]
  rfl

/-- The new location features at (P, q). -/
theorem new (x0 : S100000x128.Idx → EReal) (x1 : S200000x128.Idx → EReal) (x2 : S2x1000000.Idx → BitVec 32) (x3 : S128x64.Idx → EReal) (x4 : S64.Idx → EReal) (x5 : S128x64.Idx → EReal) (x6 : S64.Idx → EReal) (x7 : S64x64.Idx → EReal) (x8 : S64.Idx → EReal) (x9 : S64x64.Idx → EReal) (P : Fin 100000) (q : Fin 64) :
    val_main_v39 (F := Ideal) x0 x1 x2 x3 x4 x5 x6 x7 x8 x9 (ix2 P q)
      = Gnn.newRow (fun l => val_main_v23 (F := Ideal) x1 x2 x5 x6 (ix2 P l)) (val_main_v27 (F := Ideal) x2 (ix1 P))
          (fun l => val_main_v4 (F := Ideal) x0 x3 x4 (ix2 P l)) x7 (fun q' => x8 (ix1 q')) x9 q := by
  have il : ∀ k : Fin 64, lidx_main_v33 (ix2 P q) k = ix2 P k := fun k => funext fun a => Fin.ext (by match a with | ⟨0, _⟩ => rfl | ⟨1, _⟩ => rfl)
  have ir : ∀ k : Fin 64, ridx_main_v33 (ix2 P q) k = ix2 k q := fun k => funext fun a => Fin.ext (by match a with | ⟨0, _⟩ => rfl | ⟨1, _⟩ => rfl)
  have jl : ∀ k : Fin 64, lidx_main_v37 (ix2 P q) k = ix2 P k := fun k => funext fun a => Fin.ext (by match a with | ⟨0, _⟩ => rfl | ⟨1, _⟩ => rfl)
  have jr : ∀ k : Fin 64, ridx_main_v37 (ix2 P q) k = ix2 k q := fun k => funext fun a => Fin.ext (by match a with | ⟨0, _⟩ => rfl | ⟨1, _⟩ => rfl)
  have ib : idx_main_v34 (idx_main_v35 (ix2 P q)) = ix1 q := funext fun a => Fin.ext (by match a with | ⟨0, _⟩ => rfl)
  rw [val_main_v39_apply, val_main_v38_apply, val_main_v36_apply, val_main_v33_apply, val_main_v35_apply,
    val_main_v34_apply, val_main_v37_apply, val_main_call2_v0_apply, val_main_call2_cst_apply]
  simp only [il, ir, jl, jr, ib, agg]
  rfl

/-- The hidden features at (P, q). -/
theorem hid (x0 : S100000x128.Idx → EReal) (x1 : S200000x128.Idx → EReal) (x2 : S2x1000000.Idx → BitVec 32) (x3 : S128x64.Idx → EReal) (x4 : S64.Idx → EReal) (x5 : S128x64.Idx → EReal) (x6 : S64.Idx → EReal) (x7 : S64x64.Idx → EReal) (x8 : S64.Idx → EReal) (x9 : S64x64.Idx → EReal) (x10 : S64x32.Idx → EReal) (x11 : S32.Idx → EReal) (P : Fin 100000) (q : Fin 32) :
    val_main_v44 (F := Ideal) x0 x1 x2 x3 x4 x5 x6 x7 x8 x9 x10 x11 (ix2 P q)
      = Gnn.hidRow (fun l => val_main_v23 (F := Ideal) x1 x2 x5 x6 (ix2 P l)) (val_main_v27 (F := Ideal) x2 (ix1 P))
          (fun l => val_main_v4 (F := Ideal) x0 x3 x4 (ix2 P l)) x7 (fun q' => x8 (ix1 q')) x9 x10 (fun q' => x11 (ix1 q')) q := by
  have il : ∀ k : Fin 64, lidx_main_v40 (ix2 P q) k = ix2 P k := fun k => funext fun a => Fin.ext (by match a with | ⟨0, _⟩ => rfl | ⟨1, _⟩ => rfl)
  have ir : ∀ k : Fin 64, ridx_main_v40 (ix2 P q) k = ix2 k q := fun k => funext fun a => Fin.ext (by match a with | ⟨0, _⟩ => rfl | ⟨1, _⟩ => rfl)
  have ib : idx_main_v41 (idx_main_v42 (ix2 P q)) = ix1 q := funext fun a => Fin.ext (by match a with | ⟨0, _⟩ => rfl)
  rw [val_main_v44_apply, val_main_v43_apply, val_main_v40_apply, val_main_v42_apply, val_main_v41_apply,
    val_main_call3_v0_apply, val_main_call3_cst_apply]
  simp only [il, ir, ib, new]
  rfl

/-- The reference's result at row P. -/
theorem out (x0 : S100000x128.Idx → EReal) (x1 : S200000x128.Idx → EReal) (x2 : S2x1000000.Idx → BitVec 32) (x3 : S128x64.Idx → EReal) (x4 : S64.Idx → EReal) (x5 : S128x64.Idx → EReal) (x6 : S64.Idx → EReal) (x7 : S64x64.Idx → EReal) (x8 : S64.Idx → EReal) (x9 : S64x64.Idx → EReal) (x10 : S64x32.Idx → EReal) (x11 : S32.Idx → EReal) (x12 : S32x1.Idx → EReal) (x13 : S1.Idx → EReal) (P : Fin 100000) :
    val_main_v49 (F := Ideal) x0 x1 x2 x3 x4 x5 x6 x7 x8 x9 x10 x11 x12 x13 (ix1 P)
      = Gnn.headRow (fun l => val_main_v23 (F := Ideal) x1 x2 x5 x6 (ix2 P l)) (val_main_v27 (F := Ideal) x2 (ix1 P))
          (fun l => val_main_v4 (F := Ideal) x0 x3 x4 (ix2 P l)) x7 (fun q' => x8 (ix1 q')) x9 x10 (fun q' => x11 (ix1 q')) x12 (x13 (ix1 (0 : Fin 1))) := by
  have i0 : idx_main_v49 (ix1 P) = ix2 P (0 : Fin 1) :=
    funext fun a => Fin.ext (by match a with | ⟨0, _⟩ => exact Nat.div_one _ | ⟨1, _⟩ => rfl)
  have il : ∀ k : Fin 32, lidx_main_v45 (ix2 P (0 : Fin 1)) k = ix2 P k := fun k => funext fun a => Fin.ext (by match a with | ⟨0, _⟩ => rfl | ⟨1, _⟩ => rfl)
  have ir : ∀ k : Fin 32, ridx_main_v45 (ix2 P (0 : Fin 1)) k = ix2 k (0 : Fin 1) := fun k => funext fun a => Fin.ext (by match a with | ⟨0, _⟩ => rfl | ⟨1, _⟩ => rfl)
  have ib : idx_main_v46 (idx_main_v47 (ix2 P (0 : Fin 1))) = ix1 (0 : Fin 1) := funext fun a => Fin.ext (by match a with | ⟨0, _⟩ => rfl)
  rw [val_main_v49_apply, i0, val_main_v48_apply, val_main_v45_apply, val_main_v47_apply, val_main_v46_apply]
  simp only [il, ir, ib, hid]
  rfl

end Cert.ReferenceIdeal.RefValue

end
-- ==== Proof.Bridge.lean ====
/-
  The two programs compute one function.

  The kernel program's result is the head, row by row, of the summed messages, the per-destination counts and the
  location features, the last two launches' inputs being what the first two launches and the host operations between
  them leave.  The reference's result is the same head of its own stages.  The stages agree: the location and event
  features are the dense layer on both sides (the kernel takes its bias as a one-row array, the reference broadcasts
  the bias vector; a one-row view of a vector read at column q is the vector at q); the gather of event rows and the
  two scatter-additions are the same operations applied to equal operands and are compared as wholes, never opened;
  the counts' column read at row P is the count of row P.
-/
import proofs.«113650_j43576738185766_2_alg».proof.Proof.Fold
import proofs.«113650_j43576738185766_2_alg».proof.Proof.RefSpec
import proofs.«113650_j43576738185766_2_alg».proof.Proof.LibRowCol
import Idealize.ShloMosaic.Lib.ValueLayout
import Idealize.ShloMosaic.Lib.Pipeline.Value

noncomputable section

namespace Cert.Bridge

open Idealize.ShloMosaic Idealize.ShloMosaic.TcCoe Idealize.SL.Sem Idealize.ShloMosaic.ValueIdx
open Cert.KernelIdeal.Bridge

variable (m : (ℓ : Loc Cert.KernelIdeal.nD Cert.KernelIdeal.τ Cert.KernelIdeal.sig) → Buf (Elt Ideal) ℓ) (c : Dev Cert.KernelIdeal.nD)

/-- Argument 0 of both programs, as launched on core `c`. -/
abbrev A0 : Cert.KernelIdeal.S100000x128.Idx → EReal := m ((c : Thread Cert.KernelIdeal.nD Cert.KernelIdeal.τ).loc Cert.KernelIdeal.main_arg0)
/-- Argument 1 of both programs, as launched on core `c`. -/
abbrev A1 : Cert.KernelIdeal.S200000x128.Idx → EReal := m ((c : Thread Cert.KernelIdeal.nD Cert.KernelIdeal.τ).loc Cert.KernelIdeal.main_arg1)
/-- Argument 2 of both programs, as launched on core `c`. -/
abbrev A2 : Cert.KernelIdeal.S2x1000000.Idx → BitVec 32 := m ((c : Thread Cert.KernelIdeal.nD Cert.KernelIdeal.τ).loc Cert.KernelIdeal.main_arg2)
/-- Argument 3 of both programs, as launched on core `c`. -/
abbrev A3 : Cert.KernelIdeal.S128x64.Idx → EReal := m ((c : Thread Cert.KernelIdeal.nD Cert.KernelIdeal.τ).loc Cert.KernelIdeal.main_arg3)
/-- Argument 4 of both programs, as launched on core `c`. -/
abbrev A4 : Cert.KernelIdeal.S64.Idx → EReal := m ((c : Thread Cert.KernelIdeal.nD Cert.KernelIdeal.τ).loc Cert.KernelIdeal.main_arg4)
/-- Argument 5 of both programs, as launched on core `c`. -/
abbrev A5 : Cert.KernelIdeal.S128x64.Idx → EReal := m ((c : Thread Cert.KernelIdeal.nD Cert.KernelIdeal.τ).loc Cert.KernelIdeal.main_arg5)
/-- Argument 6 of both programs, as launched on core `c`. -/
abbrev A6 : Cert.KernelIdeal.S64.Idx → EReal := m ((c : Thread Cert.KernelIdeal.nD Cert.KernelIdeal.τ).loc Cert.KernelIdeal.main_arg6)
/-- Argument 7 of both programs, as launched on core `c`. -/
abbrev A7 : Cert.KernelIdeal.S64x64.Idx → EReal := m ((c : Thread Cert.KernelIdeal.nD Cert.KernelIdeal.τ).loc Cert.KernelIdeal.main_arg7)
/-- Argument 8 of both programs, as launched on core `c`. -/
abbrev A8 : Cert.KernelIdeal.S64.Idx → EReal := m ((c : Thread Cert.KernelIdeal.nD Cert.KernelIdeal.τ).loc Cert.KernelIdeal.main_arg8)
/-- Argument 9 of both programs, as launched on core `c`. -/
abbrev A9 : Cert.KernelIdeal.S64x64.Idx → EReal := m ((c : Thread Cert.KernelIdeal.nD Cert.KernelIdeal.τ).loc Cert.KernelIdeal.main_arg9)
/-- Argument 10 of both programs, as launched on core `c`. -/
abbrev A10 : Cert.KernelIdeal.S64x32.Idx → EReal := m ((c : Thread Cert.KernelIdeal.nD Cert.KernelIdeal.τ).loc Cert.KernelIdeal.main_arg10)
/-- Argument 11 of both programs, as launched on core `c`. -/
abbrev A11 : Cert.KernelIdeal.S32.Idx → EReal := m ((c : Thread Cert.KernelIdeal.nD Cert.KernelIdeal.τ).loc Cert.KernelIdeal.main_arg11)
/-- Argument 12 of both programs, as launched on core `c`. -/
abbrev A12 : Cert.KernelIdeal.S32x1.Idx → EReal := m ((c : Thread Cert.KernelIdeal.nD Cert.KernelIdeal.τ).loc Cert.KernelIdeal.main_arg12)
/-- Argument 13 of both programs, as launched on core `c`. -/
abbrev A13 : Cert.KernelIdeal.S1.Idx → EReal := m ((c : Thread Cert.KernelIdeal.nD Cert.KernelIdeal.τ).loc Cert.KernelIdeal.main_arg13)

/-- The location features the first launch leaves are the reference's. -/
theorem locH_eq : locH m c = Cert.ReferenceIdeal.Read.val_main_v4 (F := Ideal) (A0 m c) (A3 m c) (A4 m c) := by
  funext i
  obtain ⟨P, q, rfl⟩ : ∃ (P : Fin 100000) (q : Fin 64), i = ix2 P q := ⟨i 0, i 1, eq_ix2 i⟩
  rw [Cert.ReferenceIdeal.RefValue.dense0]
  show Gnn.denseRow (fun l => (A0 m c) (ix2 P l)) (A3 m c) (fun q' => shapeCast Cert.KernelIdeal.S1x64 (A4 m c) Cert.KernelIdeal.Gen.shapeCasts_S64_S1x64 (ix2 (0 : Fin 1) q')) q = _
  rw [RowCol.shapeCast_row]
  rfl

/-- The event features the second launch leaves are the reference's. -/
theorem evtH_eq : evtH m c = Cert.ReferenceIdeal.Read.val_main_v9 (F := Ideal) (A1 m c) (A5 m c) (A6 m c) := by
  funext i
  obtain ⟨P, q, rfl⟩ : ∃ (P : Fin 200000) (q : Fin 64), i = ix2 P q := ⟨i 0, i 1, eq_ix2 i⟩
  rw [Cert.ReferenceIdeal.RefValue.dense1]
  show Gnn.denseRow (fun l => (A1 m c) (ix2 P l)) (A5 m c) (fun q' => shapeCast Cert.KernelIdeal.S1x64 (A6 m c) Cert.KernelIdeal.Gen.shapeCasts_S64_S1x64 (ix2 (0 : Fin 1) q')) q = _
  rw [RowCol.shapeCast_row]
  rfl

/-- The summed messages: the same gather and scatter-addition of equal event features and the same edges. -/
theorem msgSum_eq : msgSum (evtH m c) (A2 m c) = Cert.ReferenceIdeal.Read.val_main_v23 (F := Ideal) (A1 m c) (A2 m c) (A5 m c) (A6 m c) := by
  rw [evtH_eq]
  rfl

/-- The counts' column at row P is the reference's count of row P. -/
theorem cnt_eq (P : Fin 100000) : cntCol (A2 m c) (ix2 P (0 : Fin 1)) = Cert.ReferenceIdeal.Read.val_main_v27 (F := Ideal) (A2 m c) (ix1 P) := by
  unfold cntCol
  refine (broadcastInDim_apply _ Cert.KernelIdeal.Gen.bcast_S100000_S100000x1_0 _ (ix2 P (0 : Fin 1)) (ix1 P) (fun a => match a with
    | ⟨0, _⟩ => by show P.val = if (100000 : Nat) = 1 then 0 else P.val; rw [if_neg (by decide)])).trans ?_
  rfl

/-- The kernel program's result array is the reference's result term of the same arguments. -/
theorem result_eq : shapeCast Cert.KernelIdeal.S100000 (outCol m c) Cert.KernelIdeal.Gen.shapeCasts_S100000x1_S100000
    = Cert.ReferenceIdeal.Read.val_main_v49 (F := Ideal) (A0 m c) (A1 m c) (A2 m c) (A3 m c) (A4 m c) (A5 m c) (A6 m c) (A7 m c) (A8 m c) (A9 m c) (A10 m c) (A11 m c) (A12 m c) (A13 m c) := by
  funext i
  obtain ⟨P, rfl⟩ : ∃ P : Fin 100000, i = ix1 P := ⟨i 0, eq_ix1 i⟩
  rw [Cert.ReferenceIdeal.RefValue.out]
  have hs : shapeCast Cert.KernelIdeal.S100000 (outCol m c) Cert.KernelIdeal.Gen.shapeCasts_S100000x1_S100000 (ix1 P) = outCol m c (ix2 P (0 : Fin 1)) :=
    shapeCast_apply _ _ _ _ (by
      rw [Shape.rowMajor_val_two, Shape.rowMajor_val_one]
      show P.val * 1 + 0 = P.val
      omega)
  rw [hs]
  show Gnn.headRow (fun l => msgSum (evtH m c) (A2 m c) (ix2 P l)) (cntCol (A2 m c) (ix2 P (0 : Fin 1))) (fun l => locH m c (ix2 P l)) (A7 m c)
      (fun q' => shapeCast Cert.KernelIdeal.S1x64 (A8 m c) Cert.KernelIdeal.Gen.shapeCasts_S64_S1x64 (ix2 (0 : Fin 1) q')) (A9 m c) (A10 m c)
      (fun q' => shapeCast Cert.KernelIdeal.S1x32 (A11 m c) Cert.KernelIdeal.Gen.shapeCasts_S32_S1x32 (ix2 (0 : Fin 1) q')) (A12 m c)
      (shapeCast Cert.KernelIdeal.S1x1 (A13 m c) Cert.KernelIdeal.Gen.shapeCasts_S1_S1x1 (ix2 (0 : Fin 1) (0 : Fin 1))) = _
  rw [msgSum_eq, cnt_eq, locH_eq, RowCol.shapeCast_row, RowCol.shapeCast_row, RowCol.shapeCast_row]
  rfl

end Cert.Bridge

end
-- ==== Proof.lean ====
/-
  A bipartite mean-aggregation network on a graph of 100000 locations, 200000 events and 1000000 edges, computed two
  ways, gives one result over the extended reals.

  Both programs project the location and event features through a dense layer with rectifier, gather for every edge the
  projected features of its source event, add them up per destination location and count the edges per destination,
  divide the sums by `max count 1`, combine the mean with the location's own features through two 64 × 64 matrices and a
  rectifier, and apply a two-layer head that leaves one number per location.  One program does the three dense parts as
  grid launches over blocks of 4000 rows with the matrix unit, the other on whole arrays with `dot_general`; over the
  extended reals a change of float format is the identity and both products are the sum over the contracted axis, and
  every row of every dense part depends on the same row of its inputs only, so blocks of rows and whole arrays give the
  same rows.  The gather and the scatter-additions are the same host operations in both programs and are carried as
  wholes.  No law that needs finite operands is used: the two sides are the same expression of the inputs, entry by
  entry.  The idealization rewrote nothing, so what it is asked to preserve is trivially preserved; each program runs
  to its end from any memory and leaves its arguments as launched.
-/
import proofs.«113650_j43576738185766_2_alg».proof.Defs
import proofs.«113650_j43576738185766_2_alg».proof.Proof.Gen.Kernel
import proofs.«113650_j43576738185766_2_alg».proof.Proof.Gen.Kernel.Skeleton
import proofs.«113650_j43576738185766_2_alg».proof.Proof.Gen.Kernel.Launch
import proofs.«113650_j43576738185766_2_alg».proof.Proof.Gen.Kernel.Points
import proofs.«113650_j43576738185766_2_alg».proof.Proof.Gen.Kernel.Frame
import proofs.«113650_j43576738185766_2_alg».proof.Proof.Gen.KernelIdeal
import proofs.«113650_j43576738185766_2_alg».proof.Proof.Gen.KernelIdeal.Skeleton
import proofs.«113650_j43576738185766_2_alg».proof.Proof.Gen.KernelIdeal.Launch
import proofs.«113650_j43576738185766_2_alg».proof.Proof.Gen.KernelIdeal.Points
import proofs.«113650_j43576738185766_2_alg».proof.Proof.Gen.KernelIdeal.Frame
import proofs.«113650_j43576738185766_2_alg».proof.Proof.Gen.ReferenceIdeal
import proofs.«113650_j43576738185766_2_alg».proof.Proof.Gen.ReferenceIdeal.Run
import proofs.«113650_j43576738185766_2_alg».proof.Proof.Gen.ReferenceIdeal.Read
import proofs.«113650_j43576738185766_2_alg».proof.Proof.Gen.Pre_finite_inputs
import proofs.«113650_j43576738185766_2_alg».proof.Proof.RunOut
import proofs.«113650_j43576738185766_2_alg».proof.Proof.Fold
import proofs.«113650_j43576738185766_2_alg».proof.Proof.Bridge
import Idealize.ShloMosaic.Adequacy
import Idealize.ShloMosaic.Init

noncomputable section

namespace Cert.Proof

open Idealize.ShloMosaic Idealize.ShloMosaic.TcCoe Idealize.SL.Sem

/-- The word-level program runs to its end and leaves its arguments as launched. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the kernel program's is the
    head of what its launches and host operations leave, the reference's the head of its own stages, and the stages are
    equal (`Cert.Bridge.result_eq`). -/
theorem algebraic : Cert.algebraic_KernelIdeal_ReferenceIdeal := by
  intro m ρ m' ρ' _ hagree
  refine ⟨fun c => shapeCast Cert.KernelIdeal.S100000 (Cert.KernelIdeal.Bridge.outCol m c) Cert.KernelIdeal.Gen.shapeCasts_S100000x1_S100000, ?_, ?_⟩
  · exact (θ_run Cert.KernelIdeal.defs _ _).mono
      (fun r h c => ⟨(h c).1.trans (Cert.KernelIdeal.Bridge.W7_v27 m ρ c), (h c).2⟩)
      (Cert.KernelIdeal.RunOut.run_out m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v49_eq, h0, h1, h2, h3, h4, h5, h6, h7, h8, h9, h10, h11, h12, h13]
    exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
